-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_v138) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1152x10x16 : Shape := ⟨4, ![128, 1152, 10, 16]⟩
abbrev S1152x10 : Shape := ⟨2, ![1152, 10]⟩
abbrev S_ : Shape := ⟨0, ![]⟩

class Facts : Prop where
  bcast_S_S128x1152x10x16 : S_.BroadcastsInDim S128x1152x10x16 (![] : Fin 0 → Fin S128x1152x10x16.rank)
  reducesTo_S128x1152x10x16_S_d0_1_2_3 : S128x1152x10x16.ReducesTo [0, 1, 2, 3] S_
  h_S_ : 0 < S_.numel
  bcast_S_S1152x10 : S_.BroadcastsInDim S1152x10 (![] : Fin 0 → Fin S1152x10.rank)
  reducesTo_S1152x10_S_d0_1 : S1152x10.ReducesTo [0, 1] S_

variable [Facts]

def fn {F : FTy → Type} [FloatOps F] (main_arg0 : FVec F S128x1152x10x16 .f32) (main_arg1 : FVec F S1152x10 .f32) : IVec S_ 1 :=
  let main_v0 : FVec F S128x1152x10x16 .f32 := Host.absf main_arg0
  let main_cst : FVec F S_ .f32 := constant S_ .f32 0x7F800000#32
  let main_v1 : FVec F S128x1152x10x16 .f32 := broadcastInDim S128x1152x10x16 ![] bcast_S_S128x1152x10x16 main_cst
  let main_v2 : IVec S128x1152x10x16 1 := cmpf .olt main_v0 main_v1
  let main_c : IVec S_ 1 := constantI S_ 1 1#1
  let main_v3 : IVec S_ 1 := (fun x v => Host.reduce IntOp.andi x v reducesTo_S128x1152x10x16_S_d0_1_2_3 h_S_) main_v2 main_c
  let main_v4 : FVec F S1152x10 .f32 := Host.absf main_arg1
  let main_cst_0 : FVec F S_ .f32 := constant S_ .f32 0x7F800000#32
  let main_v5 : FVec F S1152x10 .f32 := broadcastInDim S1152x10 ![] bcast_S_S1152x10 main_cst_0
  let main_v6 : IVec S1152x10 1 := cmpf .olt main_v4 main_v5
  let main_c_1 : IVec S_ 1 := constantI S_ 1 1#1
  let main_v7 : IVec S_ 1 := (fun x v => Host.reduce IntOp.andi x v reducesTo_S1152x10_S_d0_1 h_S_) main_v6 main_c_1
  let main_v8 : IVec S_ 1 := andi main_v3 main_v7
  main_v8
-- ==== Kernel.lean ====
abbrev S128x1152x10x16 : Shape := ⟨4, ![128, 1152, 10, 16]⟩
abbrev S1152x10 : Shape := ⟨2, ![1152, 10]⟩
abbrev S128x10x16x1152 : Shape := ⟨4, ![128, 10, 16, 1152]⟩
abbrev S128x160x1152 : Shape := ⟨3, ![128, 160, 1152]⟩
abbrev S10x1152 : Shape := ⟨2, ![10, 1152]⟩
abbrev S128x160x1 : Shape := ⟨3, ![128, 160, 1]⟩
abbrev S8x160x1152 : Shape := ⟨3, ![8, 160, 1152]⟩
abbrev S8x160x1 : Shape := ⟨3, ![8, 160, 1]⟩
abbrev S8x10x16x1152 : Shape := ⟨4, ![8, 10, 16, 1152]⟩
abbrev S10x160 : Shape := ⟨2, ![10, 160]⟩
abbrev S1x10x1152 : Shape := ⟨3, ![1, 10, 1152]⟩
abbrev S8x10x1152 : Shape := ⟨3, ![8, 10, 1152]⟩
abbrev S8x1152 : Shape := ⟨2, ![8, 1152]⟩
abbrev S8x1x1152 : Shape := ⟨3, ![8, 1, 1152]⟩
abbrev S8x10x1x1152 : Shape := ⟨4, ![8, 10, 1, 1152]⟩
abbrev S8x10x16 : Shape := ⟨3, ![8, 10, 16]⟩
abbrev S8x10x16x1 : Shape := ⟨4, ![8, 10, 16, 1]⟩
abbrev S8x10x1 : Shape := ⟨3, ![8, 10, 1]⟩
abbrev S8x10x1x1 : Shape := ⟨4, ![8, 10, 1, 1]⟩
abbrev S8x1x160 : Shape := ⟨3, ![8, 1, 160]⟩
abbrev S1x10x160 : Shape := ⟨3, ![1, 10, 160]⟩
abbrev S8x10x160 : Shape := ⟨3, ![8, 10, 160]⟩
abbrev S128x10x16 : Shape := ⟨3, ![128, 10, 16]⟩

abbrev nBuf : Space → Nat
  | .hbm => 10
  | .vmem => 7
  | .smem => 0
  | _ => 0

abbrev bufTy : (tb : Table) → Fin (tcTables nBuf tb) → BufTy
  | .hbm, ⟨0, _⟩ => ⟨S128x1152x10x16, .f32⟩
  | .hbm, ⟨1, _⟩ => ⟨S1152x10, .f32⟩
  | .hbm, ⟨2, _⟩ => ⟨S128x10x16x1152, .f32⟩
  | .hbm, ⟨3, _⟩ => ⟨S128x160x1152, .f32⟩
  | .hbm, ⟨4, _⟩ => ⟨S10x1152, .f32⟩
  | .hbm, ⟨5, _⟩ => ⟨S128x160x1, .f32⟩
  | .hbm, ⟨6, _⟩ => ⟨S128x160x1152, .f32⟩
  | .hbm, ⟨7, _⟩ => ⟨S128x10x16, .f32⟩
  | .hbm, ⟨8, _⟩ => ⟨S128x10x16x1152, .f32⟩
  | .hbm, ⟨9, _⟩ => ⟨S128x1152x10x16, .f32⟩
  | .local _ .vmem, ⟨0, _⟩ => ⟨S8x160x1152, .f32⟩
  | .local _ .vmem, ⟨1, _⟩ => ⟨S8x160x1152, .f32⟩
  | .local _ .vmem, ⟨2, _⟩ => ⟨S10x1152, .f32⟩
  | .local _ .vmem, ⟨3, _⟩ => ⟨S8x160x1, .f32⟩
  | .local _ .vmem, ⟨4, _⟩ => ⟨S8x160x1, .f32⟩
  | .local _ .vmem, ⟨5, _⟩ => ⟨S8x160x1152, .f32⟩
  | .local _ .vmem, ⟨6, _⟩ => ⟨S8x160x1152, .f32⟩
  | _, _ => ⟨S128x1152x10x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x160x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10x1152 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x160x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x160x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S128x1152x10x16_S128x10x16x1152_0_2_3_1 : S128x1152x10x16.Transposes [0, 2, 3, 1] S128x10x16x1152
  shapeCasts_S128x10x16x1152_S128x160x1152 : S128x10x16x1152.ShapeCasts S128x160x1152
  transposes_S1152x10_S10x1152_1_0 : S1152x10.Transposes [1, 0] S10x1152
  inb_S8x160x1152_S8x160x1152_0_0_0 : ∀ a, (![0, 0, 0] : Fin 3 → Nat) a + S8x160x1152.size a ≤ S8x160x1152.size a
  h_S8x160x1152 : 0 < S8x160x1152.numel
  shapeCasts_S8x160x1152_S8x160x1152 : S8x160x1152.ShapeCasts S8x160x1152
  shapeCasts_S8x160x1152_S8x10x16x1152 : S8x160x1152.ShapeCasts S8x10x16x1152
  bitsLt_bf16_f32 : FTy.bits .bf16 < FTy.bits .f32
  iota_S10x160_d1_w32 : S10x160.Iotas .tc 32 [1]
  natLt_1_32 : 1 < 32
  iota_S10x160_d0_w32 : S10x160.Iotas .tc 32 [0]
  inb_S10x1152_S10x1152_0_0 : ∀ a, (![0, 0] : Fin 2 → Nat) a + S10x1152.size a ≤ S10x1152.size a
  h_S10x1152 : 0 < S10x1152.numel
  shapeCasts_S10x1152_S10x1152 : S10x1152.ShapeCasts S10x1152
  shapeCasts_S10x1152_S1x10x1152 : S10x1152.ShapeCasts S1x10x1152
  shapeCasts_S1x10x1152_S1x10x1152 : S1x10x1152.ShapeCasts S1x10x1152
  broadcasts_S1x10x1152_S8x10x1152 : S1x10x1152.Broadcasts S8x10x1152
  reduces_S8x10x1152_S8x1152 : S8x10x1152.Reduces [1] S8x1152
  shapeCasts_S8x1152_S8x1x1152 : S8x1152.ShapeCasts S8x1x1152
  broadcasts_S8x1x1152_S8x10x1152 : S8x1x1152.Broadcasts S8x10x1152
  shapeCasts_S8x10x1152_S8x10x1x1152 : S8x10x1152.ShapeCasts S8x10x1x1152
  broadcasts_S8x10x1x1152_S8x10x16x1152 : S8x10x1x1152.Broadcasts S8x10x16x1152
  reduces_S8x10x16x1152_S8x10x16 : S8x10x16x1152.Reduces [3] S8x10x16
  shapeCasts_S8x10x16_S8x10x16x1 : S8x10x16.ShapeCasts S8x10x16x1
  reduces_S8x10x16x1_S8x10x1 : S8x10x16x1.Reduces [2] S8x10x1
  shapeCasts_S8x10x1_S8x10x1x1 : S8x10x1.ShapeCasts S8x10x1x1
  broadcasts_S8x10x1x1_S8x10x16x1 : S8x10x1x1.Broadcasts S8x10x16x1
  shapeCasts_S8x10x16x1_S8x160x1 : S8x10x16x1.ShapeCasts S8x160x1
  transposes_S8x160x1_p0_2_1_S8x1x160 : S8x160x1.Transposes [0, 2, 1] S8x1x160
  shapeCasts_S10x160_S1x10x160 : S10x160.ShapeCasts S1x10x160
  broadcasts_S1x10x160_S8x10x160 : S1x10x160.Broadcasts S8x10x160
  broadcasts_S8x1x160_S8x10x160 : S8x1x160.Broadcasts S8x10x160
  inb_S8x160x1_S8x160x1_0_0_0 : ∀ a, (![0, 0, 0] : Fin 3 → Nat) a + S8x160x1.size a ≤ S8x160x1.size a
  h_S8x160x1 : 0 < S8x160x1.numel
  shapeCasts_S8x10x16x1152_S8x160x1152 : S8x10x16x1152.ShapeCasts S8x160x1152
  shapeCasts_S128x160x1_S128x10x16 : S128x160x1.ShapeCasts S128x10x16
  shapeCasts_S128x160x1152_S128x10x16x1152 : S128x160x1152.ShapeCasts S128x10x16x1152
  transposes_S128x10x16x1152_S128x1152x10x16_0_3_1_2 : S128x10x16x1152.Transposes [0, 3, 1, 2] S128x1152x10x16
  dot_S8x10x160_S8x160x1152_S8x10x1152_2_1_1_2_0_0_wf : DotDims.WF S8x10x160 S8x160x1152 S8x10x1152 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x160x1152.size a ≤ S128x160x1152.size a
  hwx0_0 : ∀ i : grid0.Coords, EltTy.bits .f32 = 32 ∨ (Rect.block (s := S128x160x1152) S8x160x1152.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x1152.size a ≤ S10x1152.size a
  hwx0_1 : ∀ i : grid0.Coords, EltTy.bits .f32 = 32 ∨ (Rect.block (s := S10x1152) S10x1152.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x160x1.size a ≤ S128x160x1.size a
  hwx0_2 : ∀ i : grid0.Coords, EltTy.bits .f32 = 32 ∨ (Rect.block (s := S128x160x1) S8x160x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x160x1152.size a ≤ S128x160x1152.size a
  hwx0_3 : ∀ i : grid0.Coords, EltTy.bits .f32 = 32 ∨ (Rect.block (s := S128x160x1152) S8x160x1152.size (cc0_transform_3 i) (hinb0_3 i)).WholeWords (EltTy.packing .f32)

variable [Facts₀]

def dot_S8x10x160_S8x160x1152_S8x10x1152_2_1_1_2_0_0 : DotDims S8x10x160 S8x160x1152 S8x10x1152 where
  lhsContracting := [2]
  rhsContracting := [1]
  lhsNonContracting := [1]
  rhsNonContracting := [2]
  lhsBatch := [0]
  rhsBatch := [0]
  wf := dot_S8x10x160_S8x160x1152_S8x10x1152_2_1_1_2_0_0_wf

abbrev win0_0 : Pipeline.Window sig grid0 :=
  Pipeline.Window.ofSpec (Memref.whole main_v1) S8x160x1152.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S10x1152.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3_0) S8x160x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_1) S8x160x1152.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S128x1152x10x16 : Shape := ⟨4, ![128, 1152, 10, 16]⟩
abbrev S1152x10 : Shape := ⟨2, ![1152, 10]⟩
abbrev S_ : Shape := ⟨0, ![]⟩
abbrev S1152 : Shape := ⟨1, ![1152]⟩
abbrev S1152x1 : Shape := ⟨2, ![1152, 1]⟩
abbrev S1x1152x10x1 : Shape := ⟨4, ![1, 1152, 10, 1]⟩
abbrev S128x10x16 : Shape := ⟨3, ![128, 10, 16]⟩
abbrev S128x10 : Shape := ⟨2, ![128, 10]⟩
abbrev S128x10x1 : Shape := ⟨3, ![128, 10, 1]⟩
abbrev S128x1152x10 : Shape := ⟨3, ![128, 1152, 10]⟩
abbrev S128x1x10x16 : Shape := ⟨4, ![128, 1, 10, 16]⟩
abbrev S147456x10 : Shape := ⟨2, ![147456, 10]⟩
abbrev S147456 : Shape := ⟨1, ![147456]⟩
abbrev S147456x1 : Shape := ⟨2, ![147456, 1]⟩
abbrev S128x1152x10x1 : Shape := ⟨4, ![128, 1152, 10, 1]⟩

abbrev nBuf : Space → Nat
  | .hbm => 186
  | .vmem => 0
  | .smem => 0
  | _ => 0

abbrev hbmTy0_0 (i : Nat) : BufTy := match i % 128 with
  | 0 => ⟨S128x1152x10x16, .f32⟩
  | 1 => ⟨S1152x10, .f32⟩
  | 2 => ⟨S_, .f32⟩
  | 3 => ⟨S1152, .f32⟩
  | 4 => ⟨S_, .f32⟩
  | 5 => ⟨S1152, .f32⟩
  | 6 => ⟨S1152, .f32⟩
  | 7 => ⟨S1152x1, .f32⟩
  | 8 => ⟨S1152x10, .f32⟩
  | 9 => ⟨S1152x10, .f32⟩
  | 10 => ⟨S1152x10, .f32⟩
  | 11 => ⟨S_, .f32⟩
  | 12 => ⟨S1152, .f32⟩
  | 13 => ⟨S1152x1, .f32⟩
  | 14 => ⟨S1152x10, .f32⟩
  | 15 => ⟨S1152x10, .f32⟩
  | 16 => ⟨S1x1152x10x1, .f32⟩
  | 17 => ⟨S128x1152x10x16, .f32⟩
  | 18 => ⟨S128x1152x10x16, .f32⟩
  | 19 => ⟨S_, .f32⟩
  | 20 => ⟨S128x10x16, .f32⟩
  | 21 => ⟨S128x10x16, .f32⟩
  | 22 => ⟨S_, .f32⟩
  | 23 => ⟨S128x10, .f32⟩
  | 24 => ⟨S128x10, .f32⟩
  | 25 => ⟨S_, .f32⟩
  | 26 => ⟨S128x10, .f32⟩
  | 27 => ⟨S128x10, .f32⟩
  | 28 => ⟨S128x10, .f32⟩
  | 29 => ⟨S128x10, .f32⟩
  | 30 => ⟨S128x10x1, .f32⟩
  | 31 => ⟨S128x10x16, .f32⟩
  | 32 => ⟨S128x10x16, .f32⟩
  | 33 => ⟨S128x1152x10, .f32⟩
  | 34 => ⟨S128x1x10x16, .f32⟩
  | 35 => ⟨S128x1152x10x16, .f32⟩
  | 36 => ⟨S128x1152x10x16, .f32⟩
  | 37 => ⟨S_, .f32⟩
  | 38 => ⟨S128x1152x10, .f32⟩
  | 39 => ⟨S128x1152x10, .f32⟩
  | 40 => ⟨S147456x10, .f32⟩
  | 41 => ⟨S_, .f32⟩
  | 42 => ⟨S147456, .f32⟩
  | 43 => ⟨S_, .f32⟩
  | 44 => ⟨S147456, .f32⟩
  | 45 => ⟨S147456, .f32⟩
  | 46 => ⟨S147456x1, .f32⟩
  | 47 => ⟨S147456x10, .f32⟩
  | 48 => ⟨S147456x10, .f32⟩
  | 49 => ⟨S147456x10, .f32⟩
  | 50 => ⟨S_, .f32⟩
  | 51 => ⟨S147456, .f32⟩
  | 52 => ⟨S147456x1, .f32⟩
  | 53 => ⟨S147456x10, .f32⟩
  | 54 => ⟨S147456x10, .f32⟩
  | 55 => ⟨S128x1152x10x1, .f32⟩
  | 56 => ⟨S128x1152x10x16, .f32⟩
  | 57 => ⟨S128x1152x10x16, .f32⟩
  | 58 => ⟨S_, .f32⟩
  | 59 => ⟨S128x10x16, .f32⟩
  | 60 => ⟨S128x10x16, .f32⟩
  | 61 => ⟨S_, .f32⟩
  | 62 => ⟨S128x10, .f32⟩
  | 63 => ⟨S128x10, .f32⟩
  | 64 => ⟨S_, .f32⟩
  | 65 => ⟨S128x10, .f32⟩
  | 66 => ⟨S128x10, .f32⟩
  | 67 => ⟨S128x10, .f32⟩
  | 68 => ⟨S128x10, .f32⟩
  | 69 => ⟨S128x10x1, .f32⟩
  | 70 => ⟨S128x10x16, .f32⟩
  | 71 => ⟨S128x10x16, .f32⟩
  | 72 => ⟨S128x1x10x16, .f32⟩
  | 73 => ⟨S128x1152x10x16, .f32⟩
  | 74 => ⟨S128x1152x10x16, .f32⟩
  | 75 => ⟨S_, .f32⟩
  | 76 => ⟨S128x1152x10, .f32⟩
  | 77 => ⟨S128x1152x10, .f32⟩
  | 78 => ⟨S147456x10, .f32⟩
  | 79 => ⟨S_, .f32⟩
  | 80 => ⟨S147456, .f32⟩
  | 81 => ⟨S_, .f32⟩
  | 82 => ⟨S147456, .f32⟩
  | 83 => ⟨S147456, .f32⟩
  | 84 => ⟨S147456x1, .f32⟩
  | 85 => ⟨S147456x10, .f32⟩
  | 86 => ⟨S147456x10, .f32⟩
  | 87 => ⟨S147456x10, .f32⟩
  | 88 => ⟨S_, .f32⟩
  | 89 => ⟨S147456, .f32⟩
  | 90 => ⟨S147456x1, .f32⟩
  | 91 => ⟨S147456x10, .f32⟩
  | 92 => ⟨S147456x10, .f32⟩
  | 93 => ⟨S128x1152x10x1, .f32⟩
  | 94 => ⟨S128x1152x10x16, .f32⟩
  | 95 => ⟨S128x1152x10x16, .f32⟩
  | 96 => ⟨S_, .f32⟩
  | 97 => ⟨S128x10x16, .f32⟩
  | 98 => ⟨S128x10x16, .f32⟩
  | 99 => ⟨S_, .f32⟩
  | 100 => ⟨S128x10, .f32⟩
  | 101 => ⟨S128x10, .f32⟩
  | 102 => ⟨S_, .f32⟩
  | 103 => ⟨S128x10, .f32⟩
  | 104 => ⟨S128x10, .f32⟩
  | 105 => ⟨S128x10, .f32⟩
  | 106 => ⟨S128x10, .f32⟩
  | 107 => ⟨S128x10x1, .f32⟩
  | 108 => ⟨S128x10x16, .f32⟩
  | 109 => ⟨S128x10x16, .f32⟩
  | 110 => ⟨S128x1x10x16, .f32⟩
  | 111 => ⟨S128x1152x10x16, .f32⟩
  | 112 => ⟨S128x1152x10x16, .f32⟩
  | 113 => ⟨S_, .f32⟩
  | 114 => ⟨S128x1152x10, .f32⟩
  | 115 => ⟨S128x1152x10, .f32⟩
  | 116 => ⟨S147456x10, .f32⟩
  | 117 => ⟨S_, .f32⟩
  | 118 => ⟨S147456, .f32⟩
  | 119 => ⟨S_, .f32⟩
  | 120 => ⟨S147456, .f32⟩
  | 121 => ⟨S147456, .f32⟩
  | 122 => ⟨S147456x1, .f32⟩
  | 123 => ⟨S147456x10, .f32⟩
  | 124 => ⟨S147456x10, .f32⟩
  | 125 => ⟨S147456x10, .f32⟩
  | 126 => ⟨S_, .f32⟩
  | 127 => ⟨S147456, .f32⟩
  | _ => ⟨S128x1152x10x16, .f32⟩

abbrev hbmTy0_1 (i : Nat) : BufTy := match i % 128 with
  | 0 => ⟨S147456x1, .f32⟩
  | 1 => ⟨S147456x10, .f32⟩
  | 2 => ⟨S147456x10, .f32⟩
  | 3 => ⟨S128x1152x10x1, .f32⟩
  | 4 => ⟨S128x1152x10x16, .f32⟩
  | 5 => ⟨S128x1152x10x16, .f32⟩
  | 6 => ⟨S_, .f32⟩
  | 7 => ⟨S128x10x16, .f32⟩
  | 8 => ⟨S128x10x16, .f32⟩
  | 9 => ⟨S_, .f32⟩
  | 10 => ⟨S128x10, .f32⟩
  | 11 => ⟨S128x10, .f32⟩
  | 12 => ⟨S_, .f32⟩
  | 13 => ⟨S128x10, .f32⟩
  | 14 => ⟨S128x10, .f32⟩
  | 15 => ⟨S128x10, .f32⟩
  | 16 => ⟨S128x10, .f32⟩
  | 17 => ⟨S128x10x1, .f32⟩
  | 18 => ⟨S128x10x16, .f32⟩
  | 19 => ⟨S128x10x16, .f32⟩
  | 20 => ⟨S128x1x10x16, .f32⟩
  | 21 => ⟨S128x1152x10x16, .f32⟩
  | 22 => ⟨S128x1152x10x16, .f32⟩
  | 23 => ⟨S_, .f32⟩
  | 24 => ⟨S128x1152x10, .f32⟩
  | 25 => ⟨S128x1152x10, .f32⟩
  | 26 => ⟨S147456x10, .f32⟩
  | 27 => ⟨S_, .f32⟩
  | 28 => ⟨S147456, .f32⟩
  | 29 => ⟨S_, .f32⟩
  | 30 => ⟨S147456, .f32⟩
  | 31 => ⟨S147456, .f32⟩
  | 32 => ⟨S147456x1, .f32⟩
  | 33 => ⟨S147456x10, .f32⟩
  | 34 => ⟨S147456x10, .f32⟩
  | 35 => ⟨S147456x10, .f32⟩
  | 36 => ⟨S_, .f32⟩
  | 37 => ⟨S147456, .f32⟩
  | 38 => ⟨S147456x1, .f32⟩
  | 39 => ⟨S147456x10, .f32⟩
  | 40 => ⟨S147456x10, .f32⟩
  | 41 => ⟨S128x1152x10x1, .f32⟩
  | 42 => ⟨S128x1152x10x16, .f32⟩
  | 43 => ⟨S128x1152x10x16, .f32⟩
  | 44 => ⟨S_, .f32⟩
  | 45 => ⟨S128x10x16, .f32⟩
  | 46 => ⟨S128x10x16, .f32⟩
  | 47 => ⟨S_, .f32⟩
  | 48 => ⟨S128x10, .f32⟩
  | 49 => ⟨S128x10, .f32⟩
  | 50 => ⟨S_, .f32⟩
  | 51 => ⟨S128x10, .f32⟩
  | 52 => ⟨S128x10, .f32⟩
  | 53 => ⟨S128x10, .f32⟩
  | 54 => ⟨S128x10, .f32⟩
  | 55 => ⟨S128x10x1, .f32⟩
  | 56 => ⟨S128x10x16, .f32⟩
  | 57 => ⟨S128x10x16, .f32⟩
  | _ => ⟨S128x1152x10x16, .f32⟩

abbrev hbmTy (i : Nat) : BufTy := match i / 128 with
  | 0 => hbmTy0_0 i
  | 1 => hbmTy0_1 i
  | _ => ⟨S128x1152x10x16, .f32⟩

abbrev bufTy : (tb : Table) → Fin (tcTables nBuf tb) → BufTy
  | .hbm, ⟨i, _⟩ => hbmTy i
  | _, _ => ⟨S128x1152x10x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_5 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_6 : Ref sig .tc := ⟨.hbm, 41, rfl⟩
abbrev main_v32 : Ref sig .tc := ⟨.hbm, 42, rfl⟩
abbrev main_cst_7 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_8 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_9 : Ref sig .tc := ⟨.hbm, 58, rfl⟩
abbrev main_v46 : Ref sig .tc := ⟨.hbm, 59, rfl⟩
abbrev main_v47 : Ref sig .tc := ⟨.hbm, 60, rfl⟩
abbrev main_cst_10 : Ref sig .tc := ⟨.hbm, 61, rfl⟩
abbrev main_v48 : Ref sig .tc := ⟨.hbm, 62, rfl⟩
abbrev main_v49 : Ref sig .tc := ⟨.hbm, 63, rfl⟩
abbrev main_cst_11 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_12 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_13 : Ref sig .tc := ⟨.hbm, 79, rfl⟩
abbrev main_v63 : Ref sig .tc := ⟨.hbm, 80, rfl⟩
abbrev main_cst_14 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_cst_15 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_cst_16 : Ref sig .tc := ⟨.hbm, 96, rfl⟩
abbrev main_v77 : Ref sig .tc := ⟨.hbm, 97, rfl⟩
abbrev main_v78 : Ref sig .tc := ⟨.hbm, 98, rfl⟩
abbrev main_cst_17 : Ref sig .tc := ⟨.hbm, 99, rfl⟩
abbrev main_v79 : Ref sig .tc := ⟨.hbm, 100, rfl⟩
abbrev main_v80 : Ref sig .tc := ⟨.hbm, 101, rfl⟩
abbrev main_cst_18 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_cst_19 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_cst_20 : Ref sig .tc := ⟨.hbm, 117, rfl⟩
abbrev main_v94 : Ref sig .tc := ⟨.hbm, 118, rfl⟩
abbrev main_cst_21 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_cst_22 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_cst_23 : Ref sig .tc := ⟨.hbm, 134, rfl⟩
abbrev main_v108 : Ref sig .tc := ⟨.hbm, 135, rfl⟩
abbrev main_v109 : Ref sig .tc := ⟨.hbm, 136, rfl⟩
abbrev main_cst_24 : Ref sig .tc := ⟨.hbm, 137, rfl⟩
abbrev main_v110 : Ref sig .tc := ⟨.hbm, 138, rfl⟩
abbrev main_v111 : Ref sig .tc := ⟨.hbm, 139, rfl⟩
abbrev main_cst_25 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_cst_26 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_cst_27 : Ref sig .tc := ⟨.hbm, 155, rfl⟩
abbrev main_v125 : Ref sig .tc := ⟨.hbm, 156, rfl⟩
abbrev main_cst_28 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_cst_29 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_cst_30 : Ref sig .tc := ⟨.hbm, 172, rfl⟩
abbrev main_v139 : Ref sig .tc := ⟨.hbm, 173, rfl⟩
abbrev main_v140 : Ref sig .tc := ⟨.hbm, 174, rfl⟩
abbrev main_cst_31 : Ref sig .tc := ⟨.hbm, 175, rfl⟩
abbrev main_v141 : Ref sig .tc := ⟨.hbm, 176, rfl⟩
abbrev main_v142 : Ref sig .tc := ⟨.hbm, 177, rfl⟩
abbrev main_cst_32 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩

abbrev nD : Nat := 1
abbrev τ : Topo := Topo.v7x

variable {F : FTy → Type} [FloatOps F]

class Facts₀ : Prop where
  reducesTo_S1152x10_S1152_d1 : S1152x10.ReducesTo [1] S1152
  h_S_ : 0 < S_.numel
  bcast_S_S1152 : S_.BroadcastsInDim S1152 (![] : Fin 0 → Fin S1152.rank)
  bcast_S1152_S1152x1_0 : S1152.BroadcastsInDim S1152x1 (![0] : Fin 1 → Fin S1152x1.rank)
  bcast_S1152x1_S1152x10_0_1 : S1152x1.BroadcastsInDim S1152x10 (![0, 1] : Fin 2 → Fin S1152x10.rank)
  bcast_S1152x10_S1x1152x10x1_1_2 : S1152x10.BroadcastsInDim S1x1152x10x1 (![1, 2] : Fin 2 → Fin S1x1152x10x1.rank)
  bcast_S1x1152x10x1_S128x1152x10x16_0_1_2_3 : S1x1152x10x1.BroadcastsInDim S128x1152x10x16 (![0, 1, 2, 3] : Fin 4 → Fin S128x1152x10x16.rank)
  reducesTo_S128x1152x10x16_S128x10x16_d1 : S128x1152x10x16.ReducesTo [1] S128x10x16
  reducesTo_S128x10x16_S128x10_d2 : S128x10x16.ReducesTo [2] S128x10
  bcast_S_S128x10 : S_.BroadcastsInDim S128x10 (![] : Fin 0 → Fin S128x10.rank)
  bcast_S128x10_S128x10x1_0_1 : S128x10.BroadcastsInDim S128x10x1 (![0, 1] : Fin 2 → Fin S128x10x1.rank)
  bcast_S128x10x1_S128x10x16_0_1_2 : S128x10x1.BroadcastsInDim S128x10x16 (![0, 1, 2] : Fin 3 → Fin S128x10x16.rank)
  bcast_S1152x10_S128x1152x10_1_2 : S1152x10.BroadcastsInDim S128x1152x10 (![1, 2] : Fin 2 → Fin S128x1152x10.rank)
  bcast_S128x10x16_S128x1x10x16_0_2_3 : S128x10x16.BroadcastsInDim S128x1x10x16 (![0, 2, 3] : Fin 3 → Fin S128x1x10x16.rank)
  bcast_S128x1x10x16_S128x1152x10x16_0_1_2_3 : S128x1x10x16.BroadcastsInDim S128x1152x10x16 (![0, 1, 2, 3] : Fin 4 → Fin S128x1152x10x16.rank)
  reducesTo_S128x1152x10x16_S128x1152x10_d3 : S128x1152x10x16.ReducesTo [3] S128x1152x10
  shapeCasts_S128x1152x10_S147456x10 : S128x1152x10.ShapeCasts S147456x10
  reducesTo_S147456x10_S147456_d1 : S147456x10.ReducesTo [1] S147456
  bcast_S_S147456 : S_.BroadcastsInDim S147456 (![] : Fin 0 → Fin S147456.rank)
  bcast_S147456_S147456x1_0 : S147456.BroadcastsInDim S147456x1 (![0] : Fin 1 → Fin S147456x1.rank)
  bcast_S147456x1_S147456x10_0_1 : S147456x1.BroadcastsInDim S147456x10 (![0, 1] : Fin 2 → Fin S147456x10.rank)
  shapeCasts_S147456x10_S128x1152x10x1 : S147456x10.ShapeCasts S128x1152x10x1
  bcast_S128x1152x10x1_S128x1152x10x16_0_1_2_3 : S128x1152x10x1.BroadcastsInDim S128x1152x10x16 (![0, 1, 2, 3] : Fin 4 → Fin S128x1152x10x16.rank)

variable [Facts₀]

class Facts : Prop extends Facts₀ where

variable [Facts]
-- ==== Proof.KRound.lean ====
/-
  One routing round as the kernel's body computes it on a block of 8 batch elements, and each of its steps read at an
  index at the ideal (extended real) values.

  The block holds the prediction vectors as u4 (g, o, d, i) (and, with the capsule coordinates flattened, as ub (g, 16 o + d, i)),
  the logits as b (g, o, i).  A round is:
    * coefficients   c (g,o,i) = exp b (g,o,i) * (1 / sum_o' exp b (g,o',i));
    * products       p (g,o,d,i) = u4 (g,o,d,i) * c (g,o,i), and their sums over i, s (g,o,d);
    * squared lengths n (g,o) = sum_d s (g,o,d)^2, and the squashed capsules v (g, 16 o + d) = s (g,o,d) * (sqrt n * (1 / (1 + n)));
    * the agreement update  b' (g,o,i) = b (g,o,i) + sum_k (mask (o,k) * v (g,k)) * ub (g,k,i)  over the 160 flattened
      coordinates k, a batched matrix product into a zero accumulator.
-/
import proofs.«174649_g90658169684170_cont_sun_m_702_26_alg».proof.Proof.Gen.KernelIdeal.Skeleton
import Idealize.ShloMosaic.Lib.Pipeline.Value
import Idealize.ShloMosaic.Lib.ValueIdx
import Idealize.ShloMosaic.PureOps.Ideal.Laws

set_option synthInstance.maxSize 4096

noncomputable section

open scoped BigOperators

namespace Cert.KernelIdeal.KR

open Cert.KernelIdeal Cert.KernelIdeal.Gen Idealize.ShloMosaic Idealize.ShloMosaic.ValueIdx Idealize.SL.Sem

variable {F : FTy → Type} [FloatOps F]

/-! ## The steps, as functions of vectors (at any float instance) -/

/-- The softmax of the logits over the output capsules. -/
def kCoef (b : FVec F S8x10x1152 .f32) : FVec F S8x10x1152 .f32 :=
  mulf (exp b) (broadcastTo S8x10x1152 (divf (broadcast S8x1x1152 (Scalar.ofBits .f32 0x3F800000#32)) (shapeCast S8x1x1152 (multiReduction .add [1] S8x1152 (exp b) 0x00000000#32 reduces_S8x10x1152_S8x1152 (.inl rfl) rfl) shapeCasts_S8x1152_S8x1x1152)) broadcasts_S8x1x1152_S8x10x1152)

/-- The prediction vectors weighted by the coefficients. -/
def kProd (u4 : FVec F S8x10x16x1152 .f32) (c : FVec F S8x10x1152 .f32) : FVec F S8x10x16x1152 .f32 :=
  mulf u4 (broadcastTo S8x10x16x1152 (shapeCast S8x10x1x1152 c shapeCasts_S8x10x1152_S8x10x1x1152) broadcasts_S8x10x1x1152_S8x10x16x1152)

/-- Their sum over the input capsules. -/
def kSum (p : FVec F S8x10x16x1152 .f32) : FVec F S8x10x16x1 .f32 :=
  shapeCast S8x10x16x1 (multiReduction .add [3] S8x10x16 p 0x00000000#32 reduces_S8x10x16x1152_S8x10x16 (.inl rfl) rfl) shapeCasts_S8x10x16_S8x10x16x1

/-- The squared length of each output capsule. -/
def kLen2 (s : FVec F S8x10x16x1 .f32) : FVec F S8x10x1x1 .f32 :=
  shapeCast S8x10x1x1 (multiReduction .add [2] S8x10x1 (mulf s s) 0x00000000#32 reduces_S8x10x16x1_S8x10x1 (.inl rfl) rfl) shapeCasts_S8x10x1_S8x10x1x1

/-- The squashed capsules, with the capsule coordinates flattened. -/
def kSquash (s : FVec F S8x10x16x1 .f32) : FVec F S8x160x1 .f32 :=
  shapeCast S8x160x1 (mulf s (broadcastTo S8x10x16x1 (mulf (sqrt (kLen2 s)) (divf (broadcast S8x10x1x1 (Scalar.ofBits .f32 0x3F800000#32)) (addf (broadcast S8x10x1x1 (Scalar.ofBits .f32 0x3F800000#32)) (kLen2 s)))) broadcasts_S8x10x1x1_S8x10x16x1)) shapeCasts_S8x10x16x1_S8x160x1

/-- The logits after the agreement update. -/
def kNext (ub : FVec F S8x160x1152 .bf16) (mask : FVec F S10x160 .f32) (b : FVec F S8x10x1152 .f32) (v : FVec F S8x160x1 .f32) : FVec F S8x10x1152 .f32 :=
  addf b (matmul dot_S8x10x160_S8x160x1152_S8x10x1152_2_1_1_2_0_0 none (truncf .bf16 (mulf (broadcastTo S8x10x160 (shapeCast S1x10x160 mask shapeCasts_S10x160_S1x10x160) broadcasts_S1x10x160_S8x10x160) (broadcastTo S8x10x160 (transpose S8x1x160 [0, 2, 1] v transposes_S8x160x1_p0_2_1_S8x1x160) broadcasts_S8x1x160_S8x10x160)) bitsLt_bf16_f32) ub (constant S8x10x1152 .f32 0x00000000#32))

/-- The output capsules of a round. -/
def kCaps (u4 : FVec F S8x10x16x1152 .f32) (b : FVec F S8x10x1152 .f32) : FVec F S8x160x1 .f32 := kSquash (kSum (kProd u4 (kCoef b)))

/-- A whole round on the logits. -/
def kStep (u4 : FVec F S8x10x16x1152 .f32) (ub : FVec F S8x160x1152 .bf16) (mask : FVec F S10x160 .f32) (b : FVec F S8x10x1152 .f32) : FVec F S8x10x1152 .f32 :=
  kNext ub mask b (kCaps u4 b)

/-! ## Each step at an index, at the ideal values -/

theorem kCoef_apply (b : FVec Ideal S8x10x1152 .f32) (g : Fin 8) (o : Fin 10) (i : Fin 1152) :
    kCoef b (ix3 g o i) = Ideal.exp (b (ix3 g o i)) * Ideal.div (Ideal.ofBits .f32 0x3F800000#32) (∑ o' : Fin 10, Ideal.exp (b (ix3 g o' i))) := by
  unfold kCoef
  refine congrArg (Ideal.exp (b (ix3 g o i)) * ·) ?_
  refine (broadcastTo_apply _ broadcasts_S8x1x1152_S8x10x1152 (ix3 g o i) (ix3 g 0 i) ?_).trans ?_
  · intro a
    match a with
    | ⟨0, _⟩ => rfl
    | ⟨1, _⟩ => rfl
    | ⟨2, _⟩ => rfl
  refine congrArg (Ideal.div (Ideal.ofBits .f32 0x3F800000#32) ·) ?_
  refine (shapeCast_apply _ shapeCasts_S8x1152_S8x1x1152 (ix3 g 0 i) (ix2 g i) ?_).trans ?_
  · rw [Shape.rowMajor_val_two, Shape.rowMajor_val_three]
    show (g : ℕ) * 1152 + (i : ℕ) = ((g : ℕ) * 1 + 0) * 1152 + (i : ℕ)
    omega
  refine (Ideal.multiReduction_add_single _ _ reduces_S8x10x1152_S8x1152 _ _ (ix2 g i)).trans ?_
  exact Finset.sum_congr rfl fun k _ => congrArg (fun j => Ideal.exp (b j)) (funext fun a => Fin.ext (by
    match a with
    | ⟨0, _⟩ => rfl
    | ⟨1, _⟩ => rfl
    | ⟨2, _⟩ => rfl))

theorem kProd_apply (u4 : FVec Ideal S8x10x16x1152 .f32) (c : FVec Ideal S8x10x1152 .f32) (g : Fin 8) (o : Fin 10) (d : Fin 16) (i : Fin 1152) :
    kProd u4 c (ix4 g o d i) = u4 (ix4 g o d i) * c (ix3 g o i) := by
  unfold kProd
  refine congrArg (u4 (ix4 g o d i) * ·) ?_
  refine (broadcastTo_apply _ broadcasts_S8x10x1x1152_S8x10x16x1152 (ix4 g o d i) (ix4 g o 0 i) ?_).trans ?_
  · intro a
    match a with
    | ⟨0, _⟩ => rfl
    | ⟨1, _⟩ => rfl
    | ⟨2, _⟩ => rfl
    | ⟨3, _⟩ => rfl
  refine shapeCast_apply _ shapeCasts_S8x10x1152_S8x10x1x1152 (ix4 g o 0 i) (ix3 g o i) ?_
  rw [Shape.rowMajor_val_three, Shape.rowMajor_val_four]
  show ((g : ℕ) * 10 + (o : ℕ)) * 1152 + (i : ℕ) = (((g : ℕ) * 10 + (o : ℕ)) * 1 + 0) * 1152 + (i : ℕ)
  omega

theorem kSum_apply (p : FVec Ideal S8x10x16x1152 .f32) (g : Fin 8) (o : Fin 10) (d : Fin 16) :
    kSum p (ix4 g o d 0) = ∑ i : Fin 1152, p (ix4 g o d i) := by
  unfold kSum
  refine (shapeCast_apply _ shapeCasts_S8x10x16_S8x10x16x1 (ix4 g o d 0) (ix3 g o d) ?_).trans ?_
  · rw [Shape.rowMajor_val_three, Shape.rowMajor_val_four]
    show ((g : ℕ) * 10 + (o : ℕ)) * 16 + (d : ℕ) = (((g : ℕ) * 10 + (o : ℕ)) * 16 + (d : ℕ)) * 1 + 0
    omega
  refine (Ideal.multiReduction_add_single _ _ reduces_S8x10x16x1152_S8x10x16 _ _ (ix3 g o d)).trans ?_
  exact Finset.sum_congr rfl fun k _ => congrArg p (funext fun a => Fin.ext (by
    match a with
    | ⟨0, _⟩ => rfl
    | ⟨1, _⟩ => rfl
    | ⟨2, _⟩ => rfl
    | ⟨3, _⟩ => rfl))

theorem kLen2_apply (s : FVec Ideal S8x10x16x1 .f32) (g : Fin 8) (o : Fin 10) :
    kLen2 s (ix4 g o 0 0) = ∑ d : Fin 16, s (ix4 g o d 0) * s (ix4 g o d 0) := by
  unfold kLen2
  refine (shapeCast_apply _ shapeCasts_S8x10x1_S8x10x1x1 (ix4 g o 0 0) (ix3 g o 0) ?_).trans ?_
  · rw [Shape.rowMajor_val_three, Shape.rowMajor_val_four]
    show ((g : ℕ) * 10 + (o : ℕ)) * 1 + 0 = (((g : ℕ) * 10 + (o : ℕ)) * 1 + 0) * 1 + 0
    omega
  refine (Ideal.multiReduction_add_single _ _ reduces_S8x10x16x1_S8x10x1 _ _ (ix3 g o 0)).trans ?_
  exact Finset.sum_congr rfl fun k _ => congrArg (fun j => s j * s j) (funext fun a => Fin.ext (by
    match a with
    | ⟨0, _⟩ => rfl
    | ⟨1, _⟩ => rfl
    | ⟨2, _⟩ => rfl
    | ⟨3, _⟩ => rfl))

theorem kSquash_apply (s : FVec Ideal S8x10x16x1 .f32) (g : Fin 8) (o : Fin 10) (d : Fin 16) (k : Fin 160) (hk : k.val = 16 * o.val + d.val) :
    kSquash s (ix3 g k 0) = s (ix4 g o d 0) * (Ideal.sqrt (kLen2 s (ix4 g o 0 0))
      * Ideal.div (Ideal.ofBits .f32 0x3F800000#32) (Ideal.ofBits .f32 0x3F800000#32 + kLen2 s (ix4 g o 0 0))) := by
  unfold kSquash
  refine (shapeCast_apply _ shapeCasts_S8x10x16x1_S8x160x1 (ix3 g k 0) (ix4 g o d 0) ?_).trans ?_
  · rw [Shape.rowMajor_val_three, Shape.rowMajor_val_four]
    show ((((g : ℕ) * 10 + (o : ℕ)) * 16 + (d : ℕ)) * 1 + 0) = ((g : ℕ) * 160 + (k : ℕ)) * 1 + 0
    omega
  refine congrArg (s (ix4 g o d 0) * ·) ?_
  refine broadcastTo_apply _ broadcasts_S8x10x1x1_S8x10x16x1 (ix4 g o d 0) (ix4 g o 0 0) ?_
  intro a
  match a with
  | ⟨0, _⟩ => rfl
  | ⟨1, _⟩ => rfl
  | ⟨2, _⟩ => rfl
  | ⟨3, _⟩ => rfl

end Cert.KernelIdeal.KR

end
-- ==== Proof.RouteReal.lean ====
/-
  Dynamic ("agreement") routing between capsules, for ONE batch element, over the real numbers.

  Input capsules i, output capsules o, capsule coordinates d.  From the prediction vectors U i o d and the
  routing logits L i o, one round computes
    * the coupling coefficients  coef L i o = exp (L i o) / sum_o' exp (L i o')   (a softmax over the output capsules),
    * the weighted sums          wsum U C o d = sum_i U i o d * C i o,
    * the squared lengths        len2 S o = sum_d S o d ^ 2,
    * the squashed capsules      squash S o d = S o d * (sqrt (len2 S o) / (1 + len2 S o)),
    * the agreements             agree U V i o = sum_d U i o d * V o d,
  and adds the agreements of the squashed capsules to the logits.  The file also holds the facts that carry these
  real formulas to the extended reals: a finite sum of reals, a quotient by a nonzero real, the two spellings of the
  softmax (with and without a shift of the exponent by a common real) and the two spellings of the squashing factor
  (sqrt n * (1 / (1 + n)) against n / (1 + n) / sqrt n, which differ only at n = 0, where the capsule itself is 0).
-/
import Idealize.ShloMosaic.PureOps.Ideal

noncomputable section

open scoped BigOperators
open Idealize.ShloMosaic

namespace Cert.Route

section Defs

variable {I O D : Type} [Fintype I] [Fintype O] [Fintype D]

/-- The coupling coefficients: the softmax of the logits over the output capsules. -/
def coef (L : I → O → ℝ) (i : I) (o : O) : ℝ := Real.exp (L i o) * (1 / ∑ o', Real.exp (L i o'))

/-- The coefficient-weighted sum of the prediction vectors over the input capsules. -/
def wsum (U : I → O → D → ℝ) (C : I → O → ℝ) (o : O) (d : D) : ℝ := ∑ i, U i o d * C i o

/-- The squared Euclidean length of each output capsule. -/
def len2 (S : O → D → ℝ) (o : O) : ℝ := ∑ d, S o d * S o d

/-- The squashing non-linearity: each capsule scaled by sqrt n / (1 + n), n its squared length. -/
def squash (S : O → D → ℝ) (o : O) (d : D) : ℝ := S o d * (Real.sqrt (len2 S o) * (1 / (1 + len2 S o)))

/-- The agreement of a prediction vector with an output capsule: their inner product. -/
def agree (U : I → O → D → ℝ) (V : O → D → ℝ) (i : I) (o : O) : ℝ := ∑ d, U i o d * V o d

/-- The output capsules of one routing round from the logits. -/
def caps (U : I → O → D → ℝ) (L : I → O → ℝ) : O → D → ℝ := squash (wsum U (coef L))

/-- The logits after one routing round. -/
def next (U : I → O → D → ℝ) (L : I → O → ℝ) : I → O → ℝ := fun i o => L i o + agree U (caps U L) i o

/-- The logits after r routing rounds, from the initial logits b. -/
def logits (U : I → O → D → ℝ) (b : I → O → ℝ) : ℕ → I → O → ℝ
  | 0 => b
  | r + 1 => next U (logits U b r)

theorem len2_nonneg (S : O → D → ℝ) (o : O) : 0 ≤ len2 S o :=
  Finset.sum_nonneg fun d _ => mul_self_nonneg (S o d)

/-- A capsule of squared length zero is the zero vector. -/
theorem eq_zero_of_len2 (S : O → D → ℝ) (o : O) (h : len2 S o = 0) (d : D) : S o d = 0 := by
  have := (Finset.sum_eq_zero_iff_of_nonneg (fun d _ => mul_self_nonneg (S o d))).mp h d (Finset.mem_univ d)
  exact mul_self_eq_zero.mp this

theorem sum_exp_pos [Nonempty O] (L : I → O → ℝ) (i : I) : 0 < ∑ o', Real.exp (L i o') :=
  Finset.sum_pos (fun o' _ => Real.exp_pos _) Finset.univ_nonempty

end Defs

/-! ## From the reals to the extended reals -/

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The f32 word 0x3F800000 is the real 1. -/
theorem ofBits_one : Ideal.ofBits .f32 0x3F800000#32 = ((1 : ℝ) : EReal) := by
  simp [Ideal.ofBits, Ideal.ieee]
  rw [← EReal.coe_mul]
  norm_num

/-- The reciprocal of a nonzero real. -/
theorem div_one_coe {s : ℝ} (h : s ≠ 0) : Ideal.div ((1 : ℝ) : EReal) (s : EReal) = ((1 / s : ℝ) : EReal) := by
  rw [Ideal.div_coe h, ← EReal.coe_mul, one_mul]

/-- The quotient of a real by a nonzero real. -/
theorem div_coe_coe {y : ℝ} (h : y ≠ 0) (x : ℝ) : Ideal.div (x : EReal) (y : EReal) = ((x / y : ℝ) : EReal) := by
  rw [Ideal.div_coe h, ← EReal.coe_mul, mul_one_div]

section Laws

variable {I O D : Type} [Fintype I] [Fintype O] [Fintype D]

/-- The softmax spelt exp x * (1 / sum exp) on the extended reals is the real coefficient. -/
theorem coef_direct [Nonempty O] (L : I → O → ℝ) (i : I) (o : O) :
    Ideal.exp (L i o : EReal) * Ideal.div ((1 : ℝ) : EReal) (∑ o', Ideal.exp (L i o' : EReal)) = (coef L i o : EReal) := by
  simp only [Ideal.exp_coe]
  rw [← coe_sum, div_one_coe (sum_exp_pos L i).ne', ← EReal.coe_mul]
  rfl

/-- The softmax spelt with every exponent shifted by a common real m, and a quotient: the same coefficient. -/
theorem coef_shifted [Nonempty O] (L : I → O → ℝ) (i : I) (m : ℝ) (o : O) :
    Ideal.div (Ideal.exp ((L i o : EReal) - (m : EReal))) ((0 : EReal) + ∑ o', Ideal.exp ((L i o' : EReal) - (m : EReal)))
      = (coef L i o : EReal) := by
  have hpos : 0 < ∑ o', Real.exp (L i o' - m) := Finset.sum_pos (fun o' _ => Real.exp_pos _) Finset.univ_nonempty
  simp only [← EReal.coe_sub, Ideal.exp_coe, zero_add]
  rw [← coe_sum, div_coe_coe hpos.ne']
  refine congrArg _ ?_
  unfold coef
  have hs : ∀ x : ℝ, Real.exp (x - m) = Real.exp x * Real.exp (-m) := fun x => by rw [sub_eq_add_neg, Real.exp_add]
  simp only [hs, ← Finset.sum_mul]
  have h1 : (∑ o', Real.exp (L i o')) ≠ 0 := (sum_exp_pos L i).ne'
  have h2 : Real.exp (-m) ≠ 0 := (Real.exp_pos _).ne'
  field_simp

/-- The squashing factor spelt sqrt n * (1 / (1 + n)). -/
theorem squash_direct (s n : ℝ) (hn : 0 ≤ n) :
    (s : EReal) * (Ideal.sqrt (n : EReal) * Ideal.div ((1 : ℝ) : EReal) (((1 : ℝ) : EReal) + (n : EReal)))
      = ((s * (Real.sqrt n * (1 / (1 + n))) : ℝ) : EReal) := by
  have h1 : (1 + n) ≠ 0 := by positivity
  rw [Ideal.sqrt_coe, if_neg (not_lt.mpr hn), ← EReal.coe_add, div_one_coe h1, ← EReal.coe_mul, ← EReal.coe_mul]

/-- The squashing factor spelt n / (1 + n) / sqrt n: the same product, also at n = 0 where the factor is junk but
    the capsule coordinate s is zero. -/
theorem squash_quotient (s n : ℝ) (hn : 0 ≤ n) (h0 : n = 0 → s = 0) :
    (s : EReal) * Ideal.div (Ideal.div (n : EReal) (((1 : ℝ) : EReal) + (n : EReal))) (Ideal.sqrt (n : EReal))
      = ((s * (Real.sqrt n * (1 / (1 + n))) : ℝ) : EReal) := by
  by_cases h : n = 0
  · rw [h0 h, EReal.coe_zero, zero_mul, zero_mul, EReal.coe_zero]
  · have hpos : 0 < n := lt_of_le_of_ne hn (Ne.symm h)
    have h1 : (1 + n) ≠ 0 := by positivity
    have hsq : Real.sqrt n ≠ 0 := (Real.sqrt_pos.mpr hpos).ne'
    have hs : Real.sqrt n * Real.sqrt n = n := Real.mul_self_sqrt hn
    rw [Ideal.sqrt_coe, if_neg (not_lt.mpr hn), ← EReal.coe_add, div_coe_coe h1, div_coe_coe hsq, ← EReal.coe_mul]
    refine congrArg _ (congrArg (s * ·) ?_)
    rw [div_div, div_eq_iff (mul_ne_zero h1 hsq)]
    calc n = Real.sqrt n * Real.sqrt n := hs.symm
      _ = Real.sqrt n * (1 / (1 + n)) * ((1 + n) * Real.sqrt n) := by field_simp

end Laws

end Cert.Route

end
-- ==== Proof.KCaps.lean ====
/-
  One routing round of the block, with real witnesses: if the block's prediction vectors and logits are (coercions of)
  real numbers at every index, so are the coupling coefficients, the weighted sums, the squared lengths and the
  squashed capsules, and they are the real round's (Cert.Route) of each of the 8 batch elements g separately.
-/
import proofs.«174649_g90658169684170_cont_sun_m_702_26_alg».proof.Proof.KRound
import proofs.«174649_g90658169684170_cont_sun_m_702_26_alg».proof.Proof.RouteReal

set_option synthInstance.maxSize 4096

noncomputable section

open scoped BigOperators

namespace Cert.KernelIdeal.KR

open Cert.KernelIdeal Cert.KernelIdeal.Gen Idealize.ShloMosaic Idealize.ShloMosaic.ValueIdx Idealize.SL.Sem Cert.Route

variable (U : Fin 8 → Fin 1152 → Fin 10 → Fin 16 → ℝ) (L : Fin 8 → Fin 1152 → Fin 10 → ℝ)

/-- The coefficients are the softmax of the real logits. -/
theorem kCoef_real (b : FVec Ideal S8x10x1152 .f32) (hb : ∀ g o i, b (ix3 g o i) = ((L g i o : ℝ) : EReal))
    (g : Fin 8) (o : Fin 10) (i : Fin 1152) : kCoef b (ix3 g o i) = ((coef (L g) i o : ℝ) : EReal) := by
  rw [kCoef_apply, ofBits_one, hb g o i, Finset.sum_congr rfl (fun o' _ => congrArg Ideal.exp (hb g o' i))]
  exact coef_direct (L g) i o

/-- The weighted sums of the prediction vectors. -/
theorem kSum_real (u4 : FVec Ideal S8x10x16x1152 .f32) (hu : ∀ g o d i, u4 (ix4 g o d i) = ((U g i o d : ℝ) : EReal))
    (b : FVec Ideal S8x10x1152 .f32) (hb : ∀ g o i, b (ix3 g o i) = ((L g i o : ℝ) : EReal))
    (g : Fin 8) (o : Fin 10) (d : Fin 16) :
    kSum (kProd u4 (kCoef b)) (ix4 g o d 0) = ((wsum (U g) (coef (L g)) o d : ℝ) : EReal) := by
  rw [kSum_apply]
  unfold wsum
  rw [coe_sum]
  refine Finset.sum_congr rfl fun i _ => ?_
  rw [kProd_apply, hu g o d i, kCoef_real L b hb g o i, ← EReal.coe_mul]

/-- The squared lengths. -/
theorem kLen2_real (S : Fin 8 → Fin 10 → Fin 16 → ℝ) (s : FVec Ideal S8x10x16x1 .f32)
    (hs : ∀ g o d, s (ix4 g o d 0) = ((S g o d : ℝ) : EReal)) (g : Fin 8) (o : Fin 10) :
    kLen2 s (ix4 g o 0 0) = ((len2 (S g) o : ℝ) : EReal) := by
  rw [kLen2_apply]
  unfold len2
  rw [coe_sum]
  refine Finset.sum_congr rfl fun d _ => ?_
  rw [hs g o d, ← EReal.coe_mul]

/-- The squashed capsules, at the flattened coordinate k = 16 o + d. -/
theorem kSquash_real (S : Fin 8 → Fin 10 → Fin 16 → ℝ) (s : FVec Ideal S8x10x16x1 .f32)
    (hs : ∀ g o d, s (ix4 g o d 0) = ((S g o d : ℝ) : EReal)) (g : Fin 8) (o : Fin 10) (d : Fin 16) (k : Fin 160)
    (hk : k.val = 16 * o.val + d.val) :
    kSquash s (ix3 g k 0) = ((squash (S g) o d : ℝ) : EReal) := by
  rw [kSquash_apply s g o d k hk, kLen2_real S s hs g o, ofBits_one, hs g o d]
  exact squash_direct (S g o d) (len2 (S g) o) (len2_nonneg (S g) o)

/-- The output capsules of the round. -/
theorem kCaps_real (u4 : FVec Ideal S8x10x16x1152 .f32) (hu : ∀ g o d i, u4 (ix4 g o d i) = ((U g i o d : ℝ) : EReal))
    (b : FVec Ideal S8x10x1152 .f32) (hb : ∀ g o i, b (ix3 g o i) = ((L g i o : ℝ) : EReal))
    (g : Fin 8) (o : Fin 10) (d : Fin 16) (k : Fin 160) (hk : k.val = 16 * o.val + d.val) :
    kCaps u4 b (ix3 g k 0) = ((caps (U g) (L g) o d : ℝ) : EReal) := by
  unfold kCaps caps
  exact kSquash_real (fun g => wsum (U g) (coef (L g))) _ (fun g o d => kSum_real U L u4 hu b hb g o d) g o d k hk

end Cert.KernelIdeal.KR

end
-- ==== Proof.KMask.lean ====
/-
  The 0/1 mask of the agreement update: entry (o, k) is 1 exactly when the flattened capsule coordinate k (0 ≤ k < 160)
  belongs to output capsule o, that is when k / 16 = o.  The body computes it from two coordinate counters with a
  rounded-down signed division by 16; over the 10 × 160 entries the word is decided by evaluation.
-/
import proofs.«174649_g90658169684170_cont_sun_m_702_26_alg».proof.Proof.Gen.KernelIdeal.Skeleton
import Idealize.ShloMosaic.Lib.Pipeline.Value
import Idealize.ShloMosaic.Lib.ValueIdx
import Idealize.ShloMosaic.Lib.Decide
import Idealize.ShloMosaic.PureOps.Ideal.Laws

set_option synthInstance.maxSize 4096

noncomputable section

namespace Cert.KernelIdeal.KR

open Cert.KernelIdeal Cert.KernelIdeal.Gen Idealize.ShloMosaic Idealize.ShloMosaic.ValueIdx Idealize.SL.Sem

/-- The integer word behind the mask: 1 where the flattened coordinate k lies in output capsule o's group of 16. -/
def maskWord : IVec S10x160 32 :=
  have v4 : IVec S10x160 32 := iota .tc S10x160 32 [1] iota_S10x160_d1_w32
  have v5 : IVec S10x160 32 := broadcast S10x160 16#32
  have v6 : IVec S10x160 32 := divsi v4 v5
  have v7 : IVec S10x160 32 := broadcast S10x160 0#32
  have v8 : IVec S10x160 1 := cmpi .sgt v4 v7
  have v9 : IVec S10x160 32 := extui 32 v8 natLt_1_32
  have v10 : IVec S10x160 32 := broadcast S10x160 0#32
  have v11 : IVec S10x160 1 := cmpi .slt v4 v10
  have v12 : IVec S10x160 32 := extui 32 v11 natLt_1_32
  have v13 : IVec S10x160 32 := subi v9 v12
  let v14 : BitVec 1 := Scalar.cmpi .sgt 16#32 0#32
  let v15 : BitVec 32 := Scalar.extui v14
  let v16 : BitVec 1 := Scalar.cmpi .slt 16#32 0#32
  let v17 : BitVec 32 := Scalar.extui v16
  let v18 : BitVec 32 := Scalar.subi v15 v17
  have v19 : IVec S10x160 32 := broadcast S10x160 v18
  have v20 : IVec S10x160 1 := cmpi .ne v13 v19
  have v21 : IVec S10x160 32 := broadcast S10x160 16#32
  have v22 : IVec S10x160 32 := remsi v4 v21
  have v23 : IVec S10x160 32 := broadcast S10x160 0#32
  have v24 : IVec S10x160 1 := cmpi .ne v22 v23
  have v25 : IVec S10x160 1 := andi v20 v24
  have v26 : IVec S10x160 32 := broadcast S10x160 1#32
  have v27 : IVec S10x160 32 := subi v6 v26
  have v28 : IVec S10x160 32 := select v25 v27 v6
  have v29 : IVec S10x160 32 := iota .tc S10x160 32 [0] iota_S10x160_d0_w32
  have v30 : IVec S10x160 1 := cmpi .eq v28 v29
  have v31 : IVec S10x160 32 := extui 32 v30 natLt_1_32
  v31

theorem pay5_eq {F : FTy → Type} [FloatOps F] : k0_pay5 (F := F) = sitofp .f32 maskWord := rfl

theorem maskWord_apply : ∀ (o : Fin 10) (k : Fin 160), maskWord (ix2 o k) = if k.val / 16 = o.val then 1#32 else 0#32 := by
  decide +kernel

/-- The mask at the ideal values: the real 1 inside capsule o's group of sixteen coordinates, the real 0 outside. -/
theorem mask_apply (o : Fin 10) (k : Fin 160) :
    k0_pay5 (F := Ideal) (ix2 o k) = (((if k.val / 16 = o.val then (1 : ℝ) else 0) : ℝ) : EReal) := by
  rw [pay5_eq]
  show ((((maskWord (ix2 o k)).toInt : ℝ)) : EReal) = _
  rw [maskWord_apply]
  by_cases h : k.val / 16 = o.val
  · rw [if_pos h, if_pos h]; norm_num
  · rw [if_neg h, if_neg h]; norm_num

end Cert.KernelIdeal.KR

end
-- ==== Proof.KAgree.lean ====
/-
  The agreement update of a routing round read at an index at the ideal (extended real) values, and the real sum that
  the block mask cuts out of the 160 flattened capsule coordinates.

  The update is a batched matrix product into a zero accumulator: over the batch axis g, the left operand
  (mask (o,k) * v (g,k)) at (g, o, k) is contracted with the predictions ub (g, k, i) over the flattened coordinate k.
-/
import proofs.«174649_g90658169684170_cont_sun_m_702_26_alg».proof.Proof.KRound
import Idealize.ShloMosaic.Lib.Pipeline.Value
import Idealize.ShloMosaic.Lib.ValueIdx
import Idealize.ShloMosaic.PureOps.Ideal.Laws

set_option synthInstance.maxSize 4096

noncomputable section

open scoped BigOperators

namespace Cert.KernelIdeal.KR

open Cert.KernelIdeal Cert.KernelIdeal.Gen Idealize.ShloMosaic Idealize.ShloMosaic.ValueIdx Idealize.SL.Sem

/-- The dimension numbers of the agreement product: batch axis 0 of both operands, the flattened capsule coordinate
    (axis 2 on the left, axis 1 on the right) contracted. -/
abbrev agreeDims : DotDims S8x10x160 S8x160x1152 S8x10x1152 := dot_S8x10x160_S8x160x1152_S8x10x1152_2_1_1_2_0_0

/-- The contraction index of the agreement product is one coordinate below 160. -/
def agreeEquiv : agreeDims.contr.Idx ≃ Fin 160 := contrEquiv1 agreeDims 160 rfl rfl

/-- The left operand of the agreement product is read at (g, o, k). -/
theorem agree_lhsIdx (g : Fin 8) (o : Fin 10) (i : Fin 1152) (k : Fin 160) :
    agreeDims.lhsIdx (ix3 g o i) (agreeEquiv.symm k) = ix3 g o k := by
  funext a
  refine Fin.ext ?_
  match a with
  | ⟨0, _⟩ => rfl
  | ⟨1, _⟩ => rfl
  | ⟨2, _⟩ =>
    exact (DotDims.lhsIdx_val_of_single (d := agreeDims) (cl := 2) rfl (ix3 g o i) (agreeEquiv.symm k)).trans
      (contrEquiv1_symm_val agreeDims 160 rfl rfl k)

/-- The right operand of the agreement product is read at (g, k, i). -/
theorem agree_rhsIdx (g : Fin 8) (o : Fin 10) (i : Fin 1152) (k : Fin 160) :
    agreeDims.rhsIdx (ix3 g o i) (agreeEquiv.symm k) = ix3 g k i := by
  funext a
  refine Fin.ext ?_
  match a with
  | ⟨0, _⟩ => rfl
  | ⟨2, _⟩ => rfl
  | ⟨1, _⟩ =>
    exact (DotDims.rhsIdx_val_of_single (d := agreeDims) (cr := 1) rfl (ix3 g o i) (agreeEquiv.symm k)).trans
      (contrEquiv1_symm_val agreeDims 160 rfl rfl k)

/-- The left operand of the agreement product, mask times transposed capsules, read at (g, o, k). -/
theorem agree_lhs_apply (mask : FVec Ideal S10x160 .f32) (v : FVec Ideal S8x160x1 .f32) (g : Fin 8) (o : Fin 10) (k : Fin 160) :
    (truncf .bf16 (mulf (broadcastTo S8x10x160 (shapeCast S1x10x160 mask shapeCasts_S10x160_S1x10x160) broadcasts_S1x10x160_S8x10x160)
        (broadcastTo S8x10x160 (transpose S8x1x160 [0, 2, 1] v transposes_S8x160x1_p0_2_1_S8x1x160) broadcasts_S8x1x160_S8x10x160))
        bitsLt_bf16_f32 : FVec Ideal S8x10x160 .bf16) (ix3 g o k)
      = mask (ix2 o k) * v (ix3 g k 0) := by
  refine (truncf_apply _ bitsLt_bf16_f32 (ix3 g o k)).trans ?_
  refine (mulf_apply _ _ (ix3 g o k)).trans ?_
  refine congrArg₂ (· * ·) ?_ ?_
  · refine (broadcastTo_apply _ broadcasts_S1x10x160_S8x10x160 (ix3 g o k) (ix3 0 o k) ?_).trans ?_
    · intro a
      match a with
      | ⟨0, _⟩ => rfl
      | ⟨1, _⟩ => rfl
      | ⟨2, _⟩ => rfl
    refine shapeCast_apply _ shapeCasts_S10x160_S1x10x160 (ix3 0 o k) (ix2 o k) ?_
    rw [Shape.rowMajor_val_two, Shape.rowMajor_val_three]
    show (o : ℕ) * 160 + (k : ℕ) = (0 * 10 + (o : ℕ)) * 160 + (k : ℕ)
    omega
  · refine (broadcastTo_apply _ broadcasts_S8x1x160_S8x10x160 (ix3 g o k) (ix3 g 0 k) ?_).trans ?_
    · intro a
      match a with
      | ⟨0, _⟩ => rfl
      | ⟨1, _⟩ => rfl
      | ⟨2, _⟩ => rfl
    refine transpose_apply _ v transposes_S8x160x1_p0_2_1_S8x1x160 (ix3 g 0 k) (ix3 g k 0) ?_
    intro a
    match a with
    | ⟨0, _⟩ => rfl
    | ⟨1, _⟩ => rfl
    | ⟨2, _⟩ => rfl

/-- The agreement update read at an index: the logit plus the sum, over the 160 flattened capsule coordinates, of the
    masked capsule coordinate times the prediction. -/
theorem kNext_apply (ub : FVec Ideal S8x160x1152 .bf16) (mask : FVec Ideal S10x160 .f32) (b : FVec Ideal S8x10x1152 .f32)
    (v : FVec Ideal S8x160x1 .f32) (g : Fin 8) (o : Fin 10) (i : Fin 1152) :
    kNext ub mask b v (ix3 g o i)
      = b (ix3 g o i) + ∑ k : Fin 160, (mask (ix2 o k) * v (ix3 g k 0)) * ub (ix3 g k i) := by
  unfold kNext
  refine congrArg (b (ix3 g o i) + ·) ?_
  refine (Ideal.matmul_constant_zero_apply agreeDims none _ ub (ix3 g o i)).trans ?_
  refine (Equiv.sum_comp agreeEquiv.symm _).symm.trans ?_
  refine Finset.sum_congr rfl fun k _ => ?_
  exact congrArg₂ (· * ·) ((congrArg _ (agree_lhsIdx g o i k)).trans (agree_lhs_apply mask v g o k))
    (congrArg ub (agree_rhsIdx g o i k))

/-- A sum over the 160 flattened coordinates masked to the block of capsule `o` is the sum over that block's 16
    coordinates. -/
theorem masked_sum (o : Fin 10) (V W : Fin 160 → ℝ) :
    ∑ k : Fin 160, ((if k.val / 16 = o.val then (1 : ℝ) else 0) * V k) * W k
      = ∑ d : Fin 16, V ⟨16 * o.val + d.val, by omega⟩ * W ⟨16 * o.val + d.val, by omega⟩ := by
  let e : Fin 10 × Fin 16 ≃ Fin 160 := finProdFinEquiv
  have hv : ∀ (a : Fin 10) (d : Fin 16), (e (a, d)).val = d.val + 16 * a.val := fun _ _ => rfl
  rw [← Equiv.sum_comp e, Fintype.sum_prod_type, Finset.sum_eq_single o]
  · refine Finset.sum_congr rfl fun d _ => ?_
    have h1 : (e (o, d)).val / 16 = o.val := by rw [hv]; omega
    have h2 : e (o, d) = ⟨16 * o.val + d.val, by omega⟩ := Fin.ext (by
      show (e (o, d)).val = 16 * o.val + d.val
      rw [hv]; omega)
    rw [if_pos h1, one_mul, h2]
  · intro a _ hne
    refine Finset.sum_eq_zero fun d _ => ?_
    have h1 : ¬ (e (a, d)).val / 16 = o.val := by
      rw [hv]
      intro h
      exact hne (Fin.ext (by omega))
    rw [if_neg h1, zero_mul, zero_mul]
  · intro h
    exact absurd (Finset.mem_univ o) h

end Cert.KernelIdeal.KR

end
-- ==== Proof.KBlock.lean ====
/-
  The body's two stored values on a block of 8 batch elements, read at an index with real witnesses.

  The body loads the block x0 (g, k, i) of prediction vectors (k = 16 o + d the flattened capsule coordinate) and the
  logits x1 (o, i), runs four agreement updates and a fifth round, and stores the last round's output capsules and the
  last round's coefficient-weighted prediction vectors.  If x0 and x1 hold real numbers U g i o d and B i o, the stored
  values are the real routing's (Cert.Route) after four updates, for each batch element g of the block separately.
-/
import proofs.«174649_g90658169684170_cont_sun_m_702_26_alg».proof.Proof.KRound
import proofs.«174649_g90658169684170_cont_sun_m_702_26_alg».proof.Proof.KCaps
import proofs.«174649_g90658169684170_cont_sun_m_702_26_alg».proof.Proof.KMask
import proofs.«174649_g90658169684170_cont_sun_m_702_26_alg».proof.Proof.KAgree
import proofs.«174649_g90658169684170_cont_sun_m_702_26_alg».proof.Proof.RouteReal
import proofs.«174649_g90658169684170_cont_sun_m_702_26_alg».proof.Proof.Gen.KernelIdeal.Frame

set_option synthInstance.maxSize 4096

noncomputable section

open scoped BigOperators

namespace Cert.KernelIdeal.KR

open Cert.KernelIdeal Cert.KernelIdeal.Gen Idealize.ShloMosaic Idealize.ShloMosaic.ValueIdx Idealize.SL.Sem Cert.Route

/-! ## The stored values as compositions of rounds -/

section Terms

variable {F : FTy → Type} [FloatOps F]

/-- The block's prediction vectors with the capsule coordinates separated, -/
def blockU4 (x0 : Vec F S8x160x1152 .f32) : FVec F S8x10x16x1152 .f32 := k0_pay3 (View.ld x0 r0_0)
/-- and flattened, as the right operand of the agreement product. -/
def blockUb (x0 : Vec F S8x160x1152 .f32) : FVec F S8x160x1152 .bf16 := k0_pay4 (View.ld x0 r0_0)
/-- The initial logits, the same for the 8 batch elements. -/
def blockB0 (x1 : Vec F S10x1152 .f32) : FVec F S8x10x1152 .f32 := k0_pay6 (View.ld x1 r0_1)
/-- One agreement update of the logits. -/
def blockRound (x0 : Vec F S8x160x1152 .f32) (b : FVec F S8x10x1152 .f32) : FVec F S8x10x1152 .f32 :=
  kStep (blockU4 x0) (blockUb x0) k0_pay5 b
/-- The logits after four updates. -/
def blockB4 (x0 : Vec F S8x160x1152 .f32) (x1 : Vec F S10x1152 .f32) : FVec F S8x10x1152 .f32 :=
  blockRound x0 (blockRound x0 (blockRound x0 (blockRound x0 (blockB0 x1))))
/-- The stored output capsules. -/
def blockV (x0 : Vec F S8x160x1152 .f32) (x1 : Vec F S10x1152 .f32) : FVec F S8x160x1 .f32 := kCaps (blockU4 x0) (blockB4 x0 x1)
/-- The stored weighted prediction vectors. -/
def blockS (x0 : Vec F S8x160x1152 .f32) (x1 : Vec F S10x1152 .f32) : FVec F S8x160x1152 .f32 :=
  k0_pay1 (kProd (blockU4 x0) (kCoef (blockB4 x0 x1)))

theorem hz3 : (![0, 0, 0] : Fin 3 → Nat) = fun _ => 0 := funext fun a => by fin_cases a <;> rfl
theorem hz2 : (![0, 0] : Fin 2 → Nat) = fun _ => 0 := funext fun a => by fin_cases a <;> rfl

/-- The first output window's buffer after the body is the output capsules. -/
theorem out0_2_eq (x0 : Vec F S8x160x1152 .f32) (x1 : Vec F S10x1152 .f32) : out0_2 x0 x1 = blockV x0 x1 :=
  (show out0_2 x0 x1 = View.canon [⟨r0_2, blockV x0 x1⟩] from rfl).trans (View.canon_unit_zero hz3 _ _)

/-- The second output window's buffer after the body is the weighted prediction vectors. -/
theorem out0_3_eq (x0 : Vec F S8x160x1152 .f32) (x1 : Vec F S10x1152 .f32) : out0_3 x0 x1 = blockS x0 x1 :=
  (show out0_3 x0 x1 = View.canon [⟨r0_0, blockS x0 x1⟩] from rfl).trans (View.canon_unit_zero hz3 _ _)

end Terms

/-! ## The loaded blocks at an index -/

/-- The output capsule of a flattened coordinate, -/
def hi (k : Fin 160) : Fin 10 := ⟨k.val / 16, by have := k.isLt; omega⟩
/-- and the coordinate inside the capsule. -/
def lo (k : Fin 160) : Fin 16 := ⟨k.val % 16, Nat.mod_lt _ (by decide)⟩
theorem hi_lo (k : Fin 160) : k.val = 16 * (hi k).val + (lo k).val := by
  show k.val = 16 * (k.val / 16) + k.val % 16
  omega
theorem hi_of (o : Fin 10) (d : Fin 16) (k : Fin 160) (hk : k.val = 16 * o.val + d.val) : hi k = o :=
  Fin.ext (by show k.val / 16 = o.val; have := d.isLt; omega)
theorem lo_of (o : Fin 10) (d : Fin 16) (k : Fin 160) (hk : k.val = 16 * o.val + d.val) : lo k = d :=
  Fin.ext (by show k.val % 16 = d.val; have := d.isLt; omega)

theorem blockU4_apply (x0 : Vec Ideal S8x160x1152 .f32) (g : Fin 8) (o : Fin 10) (d : Fin 16) (i : Fin 1152) (k : Fin 160)
    (hk : k.val = 16 * o.val + d.val) : blockU4 x0 (ix4 g o d i) = x0 (ix3 g k i) := by
  unfold blockU4 k0_pay3 k0_pay2
  rw [View.ld_unit_zero (S := S8x160x1152) hz3]
  refine (shapeCast_apply _ shapeCasts_S8x160x1152_S8x10x16x1152 (ix4 g o d i) (ix3 g k i) ?_).trans ?_
  · rw [Shape.rowMajor_val_three, Shape.rowMajor_val_four]
    show ((g : ℕ) * 160 + (k : ℕ)) * 1152 + (i : ℕ) = ((((g : ℕ) * 10 + (o : ℕ)) * 16 + (d : ℕ)) * 1152 + (i : ℕ))
    omega
  · exact shapeCast_apply _ shapeCasts_S8x160x1152_S8x160x1152 (ix3 g k i) (ix3 g k i) rfl

theorem blockUb_apply (x0 : Vec Ideal S8x160x1152 .f32) (g : Fin 8) (k : Fin 160) (i : Fin 1152) :
    blockUb x0 (ix3 g k i) = x0 (ix3 g k i) := by
  unfold blockUb k0_pay4 k0_pay2
  rw [View.ld_unit_zero (S := S8x160x1152) hz3]
  exact shapeCast_apply _ shapeCasts_S8x160x1152_S8x160x1152 (ix3 g k i) (ix3 g k i) rfl

theorem blockB0_apply (x1 : Vec Ideal S10x1152 .f32) (g : Fin 8) (o : Fin 10) (i : Fin 1152) :
    blockB0 x1 (ix3 g o i) = x1 (ix2 o i) := by
  unfold blockB0 k0_pay6
  rw [View.ld_unit_zero (S := S10x1152) hz2]
  refine (broadcastTo_apply _ broadcasts_S1x10x1152_S8x10x1152 (ix3 g o i) (ix3 0 o i) ?_).trans ?_
  · intro a
    match a with
    | ⟨0, _⟩ => rfl
    | ⟨1, _⟩ => rfl
    | ⟨2, _⟩ => rfl
  refine (shapeCast_apply _ shapeCasts_S1x10x1152_S1x10x1152 (ix3 0 o i) (ix3 0 o i) rfl).trans ?_
  refine (shapeCast_apply _ shapeCasts_S10x1152_S1x10x1152 (ix3 0 o i) (ix2 o i) ?_).trans ?_
  · rw [Shape.rowMajor_val_two, Shape.rowMajor_val_three]
    show (o : ℕ) * 1152 + (i : ℕ) = (0 * 10 + (o : ℕ)) * 1152 + (i : ℕ)
    omega
  · exact shapeCast_apply _ shapeCasts_S10x1152_S10x1152 (ix2 o i) (ix2 o i) rfl

/-! ## The rounds with real witnesses -/

variable (U : Fin 8 → Fin 1152 → Fin 10 → Fin 16 → ℝ)

/-- One agreement update: the real logits' next. -/
theorem blockRound_real (x0 : Vec Ideal S8x160x1152 .f32)
    (hx0 : ∀ g o d i (k : Fin 160), k.val = 16 * o.val + d.val → x0 (ix3 g k i) = ((U g i o d : ℝ) : EReal))
    (L : Fin 8 → Fin 1152 → Fin 10 → ℝ) (b : FVec Ideal S8x10x1152 .f32)
    (hb : ∀ g o i, b (ix3 g o i) = ((L g i o : ℝ) : EReal)) (g : Fin 8) (o : Fin 10) (i : Fin 1152) :
    blockRound x0 b (ix3 g o i) = ((next (U g) (L g) i o : ℝ) : EReal) := by
  have hu : ∀ g o d i, blockU4 x0 (ix4 g o d i) = ((U g i o d : ℝ) : EReal) := fun g o d i =>
    (blockU4_apply x0 g o d i ⟨16 * o.val + d.val, by have := o.isLt; have := d.isLt; omega⟩ rfl).trans
      (hx0 g o d i _ rfl)
  unfold blockRound kStep
  rw [kNext_apply, hb g o i]
  unfold next agree
  rw [EReal.coe_add]
  refine congrArg (((L g i o : ℝ) : EReal) + ·) ?_
  have hterm : ∀ k : Fin 160, (k0_pay5 (F := Ideal) (ix2 o k) * kCaps (blockU4 x0) b (ix3 g k 0)) * blockUb x0 (ix3 g k i)
      = (((((if k.val / 16 = o.val then (1 : ℝ) else 0) * caps (U g) (L g) (hi k) (lo k)) * U g i (hi k) (lo k) : ℝ)) : EReal) := by
    intro k
    rw [mask_apply, kCaps_real U L (blockU4 x0) hu b hb g (hi k) (lo k) k (hi_lo k), blockUb_apply,
      hx0 g (hi k) (lo k) i k (hi_lo k), ← EReal.coe_mul, ← EReal.coe_mul]
  rw [Finset.sum_congr rfl (fun k _ => hterm k), ← coe_sum,
    masked_sum o (fun k => caps (U g) (L g) (hi k) (lo k)) (fun k => U g i (hi k) (lo k))]
  refine congrArg _ (Finset.sum_congr rfl fun d _ => ?_)
  have hk : (⟨16 * o.val + d.val, by have := o.isLt; have := d.isLt; omega⟩ : Fin 160).val = 16 * o.val + d.val := rfl
  show caps (U g) (L g) (hi _) (lo _) * U g i (hi _) (lo _) = U g i o d * caps (U g) (L g) o d
  rw [hi_of o d _ hk, lo_of o d _ hk, mul_comm]

variable (B : Fin 1152 → Fin 10 → ℝ)

/-- The logits after four updates are the real logits after four updates. -/
theorem blockB4_real (x0 : Vec Ideal S8x160x1152 .f32) (x1 : Vec Ideal S10x1152 .f32)
    (hx0 : ∀ g o d i (k : Fin 160), k.val = 16 * o.val + d.val → x0 (ix3 g k i) = ((U g i o d : ℝ) : EReal))
    (hx1 : ∀ o i, x1 (ix2 o i) = ((B i o : ℝ) : EReal)) (g : Fin 8) (o : Fin 10) (i : Fin 1152) :
    blockB4 x0 x1 (ix3 g o i) = ((logits (U g) B 4 i o : ℝ) : EReal) := by
  have h0 : ∀ g o i, blockB0 x1 (ix3 g o i) = ((logits (U g) B 0 i o : ℝ) : EReal) := fun g o i =>
    (blockB0_apply x1 g o i).trans (hx1 o i)
  have h1 := blockRound_real U x0 hx0 (fun g => logits (U g) B 0) _ h0
  have h2 := blockRound_real U x0 hx0 (fun g => logits (U g) B 1) _ h1
  have h3 := blockRound_real U x0 hx0 (fun g => logits (U g) B 2) _ h2
  exact blockRound_real U x0 hx0 (fun g => logits (U g) B 3) _ h3 g o i

/-- The stored output capsules. -/
theorem blockV_real (x0 : Vec Ideal S8x160x1152 .f32) (x1 : Vec Ideal S10x1152 .f32)
    (hx0 : ∀ g o d i (k : Fin 160), k.val = 16 * o.val + d.val → x0 (ix3 g k i) = ((U g i o d : ℝ) : EReal))
    (hx1 : ∀ o i, x1 (ix2 o i) = ((B i o : ℝ) : EReal)) (g : Fin 8) (o : Fin 10) (d : Fin 16) (k : Fin 160)
    (hk : k.val = 16 * o.val + d.val) :
    blockV x0 x1 (ix3 g k 0) = ((caps (U g) (logits (U g) B 4) o d : ℝ) : EReal) := by
  have hu : ∀ g o d i, blockU4 x0 (ix4 g o d i) = ((U g i o d : ℝ) : EReal) := fun g o d i =>
    (blockU4_apply x0 g o d i ⟨16 * o.val + d.val, by have := o.isLt; have := d.isLt; omega⟩ rfl).trans
      (hx0 g o d i _ rfl)
  unfold blockV
  exact kCaps_real U (fun g => logits (U g) B 4) (blockU4 x0) hu _ (blockB4_real U B x0 x1 hx0 hx1) g o d k hk

/-- The stored weighted prediction vectors. -/
theorem blockS_real (x0 : Vec Ideal S8x160x1152 .f32) (x1 : Vec Ideal S10x1152 .f32)
    (hx0 : ∀ g o d i (k : Fin 160), k.val = 16 * o.val + d.val → x0 (ix3 g k i) = ((U g i o d : ℝ) : EReal))
    (hx1 : ∀ o i, x1 (ix2 o i) = ((B i o : ℝ) : EReal)) (g : Fin 8) (o : Fin 10) (d : Fin 16) (i : Fin 1152) (k : Fin 160)
    (hk : k.val = 16 * o.val + d.val) :
    blockS x0 x1 (ix3 g k i) = ((U g i o d * coef (logits (U g) B 4) i o : ℝ) : EReal) := by
  unfold blockS k0_pay1
  refine (shapeCast_apply _ shapeCasts_S8x10x16x1152_S8x160x1152 (ix3 g k i) (ix4 g o d i) ?_).trans ?_
  · rw [Shape.rowMajor_val_three, Shape.rowMajor_val_four]
    show ((((g : ℕ) * 10 + (o : ℕ)) * 16 + (d : ℕ)) * 1152 + (i : ℕ)) = ((g : ℕ) * 160 + (k : ℕ)) * 1152 + (i : ℕ)
    omega
  rw [kProd_apply, blockU4_apply x0 g o d i k hk, hx0 g o d i k hk,
    kCoef_real (fun g => logits (U g) B 4) _ (blockB4_real U B x0 x1 hx0 hx1) g o i, ← EReal.coe_mul]

end Cert.KernelIdeal.KR

end
-- ==== Proof.KHost.lean ====
/-
  The host operations around the kernel region, read at an index: the two operands the region is entered with are
  the arguments with their axes permuted (and two axes merged), and the two results are the region's output arrays with
  one axis split (and the axes permuted back). Each statement is one equation between single entries.
-/
import proofs.«174649_g90658169684170_cont_sun_m_702_26_alg».proof.Proof.Gen.KernelIdeal.Frame
import Idealize.ShloMosaic.Lib.Pipeline.Value
import Idealize.ShloMosaic.Lib.ValueIdx
import Idealize.ShloMosaic.Lib.StableHlo.Run

set_option synthInstance.maxSize 4096

noncomputable section

namespace Cert.KernelIdeal.KR

open Cert.KernelIdeal Cert.KernelIdeal.Gen Idealize.ShloMosaic Idealize.ShloMosaic.TcCoe Idealize.ShloMosaic.ValueIdx Idealize.SL.Sem

variable {F : FTy → Type} [FloatOps F] (m : (ℓ : Loc nD τ sig) → Buf (Elt F) ℓ)

/-- The region's first operand at an index: `main_v1` is the argument with its capsule axis moved last and the
    two middle axes merged, so its entry `(n, 16 * o + d, i)` is the argument's entry `(n, i, o, d)`. -/
theorem entry_v1 (c : Dev nD) (n : Fin 128) (k : Fin 160) (i : Fin 1152) (o : Fin 10) (d : Fin 16) (hk : k.val = 16 * o.val + d.val) :
    (V m c main_v1 : S128x160x1152.Idx → Elt F .f32) (ix3 n k i)
      = (m ((c : Thread nD τ).loc main_arg0) : S128x1152x10x16.Idx → Elt F .f32) (ix4 n i o d) := by
  have e : (V m c main_v1 : S128x160x1152.Idx → Elt F .f32)
      = shapeCast S128x160x1152 (transpose S128x10x16x1152 [0, 2, 3, 1]
          (m ((c : Thread nD τ).loc main_arg0) : S128x1152x10x16.Idx → Elt F .f32)
          transposes_S128x1152x10x16_S128x10x16x1152_0_2_3_1) shapeCasts_S128x10x16x1152_S128x160x1152 := by
    show StableHlo.after hostOps0 (fun b => m (c, b)) (Proc.devRef .tc main_v1) = _
    after_results
    rfl
  refine (congrFun e (ix3 n k i)).trans ?_
  refine (shapeCast_apply _ _ (ix3 n k i) (ix4 n o d i) ?_).trans ?_
  · rw [Shape.rowMajor_val_three, Shape.rowMajor_val_four]
    show ((n.val * 10 + o.val) * 16 + d.val) * 1152 + i.val = (n.val * 160 + k.val) * 1152 + i.val
    omega
  · refine transpose_apply _ _ _ (ix4 n o d i) (ix4 n i o d) ?_
    intro b
    match b with
    | ⟨0, _⟩ => rfl
    | ⟨1, _⟩ => rfl
    | ⟨2, _⟩ => rfl
    | ⟨3, _⟩ => rfl

/-- The region's second operand at an index: `main_v2` is the transposed second argument. -/
theorem entry_v2 (c : Dev nD) (o : Fin 10) (i : Fin 1152) :
    (V m c main_v2 : S10x1152.Idx → Elt F .f32) (ix2 o i)
      = (m ((c : Thread nD τ).loc main_arg1) : S1152x10.Idx → Elt F .f32) (ix2 i o) := by
  have e : (V m c main_v2 : S10x1152.Idx → Elt F .f32)
      = transpose S10x1152 [1, 0] (m ((c : Thread nD τ).loc main_arg1) : S1152x10.Idx → Elt F .f32)
          transposes_S1152x10_S10x1152_1_0 := by
    show StableHlo.after hostOps0 (fun b => m (c, b)) (Proc.devRef .tc main_v2) = _
    after_results
  refine (congrFun e (ix2 o i)).trans ?_
  refine transpose_apply _ _ _ (ix2 o i) (ix2 i o) ?_
  intro b
  match b with
  | ⟨0, _⟩ => rfl
  | ⟨1, _⟩ => rfl

/-- After the region, window 2's array is what the pipeline's proof data computes for it. -/
theorem arr_v3_0 (c : Dev nD) :
    (Pipeline.withArrays (cfgs 0).spec c (V0 m c) (fun w => (dats m 0 c).arrAt w (cfgs 0).N)
        (Proc.devRef .tc main_v3_0) : S128x160x1.Idx → Elt F .f32)
      = ((dats m 0 c).arrAt 2 cfg0.N : S128x160x1.Idx → Elt F .f32) :=
  Pipeline.withArrays_arr spec0 launch0.win.arr_inj c _ _ 2

/-- After the region, window 3's array is what the pipeline's proof data computes for it. -/
theorem arr_v3_1 (c : Dev nD) :
    (Pipeline.withArrays (cfgs 0).spec c (V0 m c) (fun w => (dats m 0 c).arrAt w (cfgs 0).N)
        (Proc.devRef .tc main_v3_1) : S128x160x1152.Idx → Elt F .f32)
      = ((dats m 0 c).arrAt 3 cfg0.N : S128x160x1152.Idx → Elt F .f32) :=
  Pipeline.withArrays_arr spec0 launch0.win.arr_inj c _ _ 3

/-- The first result at an index: `main_v4` splits the middle axis of the region's first output, so its entry
    `(n, o, d)` is that output's entry `(n, 16 * o + d, 0)`. -/
theorem tail_v4 (c : Dev nD) (n : Fin 128) (o : Fin 10) (d : Fin 16) (k : Fin 160) (hk : k.val = 16 * o.val + d.val) :
    (Pipeline.afterTail₀ cfgs (dats m) 0 (V0 m) [hostOps1] c main_v4 : S128x10x16.Idx → Elt F .f32) (ix3 n o d)
      = ((dats m 0 c).arrAt 2 cfg0.N : S128x160x1.Idx → Elt F .f32) (ix3 n k (0 : Fin 1)) := by
  have e : (Pipeline.afterTail₀ cfgs (dats m) 0 (V0 m) [hostOps1] c main_v4 : S128x10x16.Idx → Elt F .f32)
      = shapeCast S128x10x16 ((dats m 0 c).arrAt 2 cfg0.N : S128x160x1.Idx → Elt F .f32)
          shapeCasts_S128x160x1_S128x10x16 := by
    unfold Pipeline.afterTail₀
    show StableHlo.after hostOps1 _ (Proc.devRef .tc main_v4) = _
    after_results
    rw [arr_v3_0 m c]
    rfl
  refine (congrFun e (ix3 n o d)).trans ?_
  refine shapeCast_apply _ _ (ix3 n o d) (ix3 n k (0 : Fin 1)) ?_
  rw [Shape.rowMajor_val_three, Shape.rowMajor_val_three]
  show (n.val * 160 + k.val) * 1 + 0 = (n.val * 10 + o.val) * 16 + d.val
  omega

/-- The second result at an index: `main_v6` splits the middle axis of the region's second output and moves the
    last axis to second place, so its entry `(n, i, o, d)` is that output's entry `(n, 16 * o + d, i)`. -/
theorem tail_v6 (c : Dev nD) (n : Fin 128) (i : Fin 1152) (o : Fin 10) (d : Fin 16) (k : Fin 160) (hk : k.val = 16 * o.val + d.val) :
    (Pipeline.afterTail₀ cfgs (dats m) 0 (V0 m) [hostOps1] c main_v6 : S128x1152x10x16.Idx → Elt F .f32) (ix4 n i o d)
      = ((dats m 0 c).arrAt 3 cfg0.N : S128x160x1152.Idx → Elt F .f32) (ix3 n k i) := by
  have e : (Pipeline.afterTail₀ cfgs (dats m) 0 (V0 m) [hostOps1] c main_v6 : S128x1152x10x16.Idx → Elt F .f32)
      = transpose S128x1152x10x16 [0, 3, 1, 2]
          (shapeCast S128x10x16x1152 ((dats m 0 c).arrAt 3 cfg0.N : S128x160x1152.Idx → Elt F .f32)
            shapeCasts_S128x160x1152_S128x10x16x1152)
          transposes_S128x10x16x1152_S128x1152x10x16_0_3_1_2 := by
    unfold Pipeline.afterTail₀
    show StableHlo.after hostOps1 _ (Proc.devRef .tc main_v6) = _
    after_results
    rw [arr_v3_1 m c]
    rfl
  refine (congrFun e (ix4 n i o d)).trans ?_
  refine (transpose_apply _ _ _ (ix4 n i o d) (ix4 n o d i) ?_).trans ?_
  · intro b
    match b with
    | ⟨0, _⟩ => rfl
    | ⟨1, _⟩ => rfl
    | ⟨2, _⟩ => rfl
    | ⟨3, _⟩ => rfl
  · refine shapeCast_apply _ _ (ix4 n o d i) (ix3 n k i) ?_
    rw [Shape.rowMajor_val_three, Shape.rowMajor_val_four]
    show (n.val * 160 + k.val) * 1152 + i.val = ((n.val * 10 + o.val) * 16 + d.val) * 1152 + i.val
    omega

end Cert.KernelIdeal.KR

end
-- ==== Proof.KArrays.lean ====
/-
  The array of output capsules after the kernel region, index by index, from real inputs.

  The region runs the body on 16 blocks of 8 batch elements.  Each point reads rows 8 t … 8 t + 7 of the array of
  prediction vectors and the whole array of logits, and writes back rows 8 t … 8 t + 7 of the array of output
  capsules.  Each written block is the restriction of one function of the whole array's index — the real routing's
  output capsules of the row's batch element after four updates of the logits —, and the 16 blocks cover the array.
-/
import proofs.«174649_g90658169684170_cont_sun_m_702_26_alg».proof.Proof.KBlock
import proofs.«174649_g90658169684170_cont_sun_m_702_26_alg».proof.Proof.KHost
import Idealize.ShloMosaic.Lib.Pipeline.Value

set_option synthInstance.maxSize 4096

noncomputable section

open scoped BigOperators

namespace Cert.KernelIdeal.KR

open Cert.KernelIdeal Cert.KernelIdeal.Gen Idealize.ShloMosaic Idealize.ShloMosaic.ValueIdx Idealize.SL.Sem Cert.Route
open Idealize.ShloMosaic.TcCoe
open Idealize.ShloMosaic.Pipeline (Dat)

namespace W2

/-! ## The grid and the windows' block indices -/

/-- A grid point is below 16. -/
theorem point_lt (t : Fin cfg0.N) : t.val < 16 := lt_of_lt_of_eq t.isLt N_0

/-- The batch element that row `g` of point `t`'s blocks is. -/
def rowOf (t : Fin cfg0.N) (g : Fin 8) : Fin 128 := ⟨8 * t.val + g.val, by have := point_lt t; have := g.isLt; omega⟩

/-- The block index of each window at each grid point: the three batched windows move along the batch axis with the
    point, the logits' window stays. -/
theorem index_facts : ∀ t : Fin cfg0.N,
    (win0_0.index t (0 : Fin 3) = t.val ∧ win0_0.index t (1 : Fin 3) = 0 ∧ win0_0.index t (2 : Fin 3) = 0)
    ∧ (win0_1.index t (0 : Fin 2) = 0 ∧ win0_1.index t (1 : Fin 2) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0) :=
  (by decide +kernel : ∀ t : Fin grid0.N, _)

variable (m : (ℓ : Loc nD τ sig) → Buf (Elt Ideal) ℓ) (c : Dev nD)

/-! ## The input blocks read off the arrays the region finds -/

/-- Point `t`'s block of the prediction vectors is rows `8 t … 8 t + 7` of the array. -/
theorem iblk0_apply (t : Fin cfg0.N) (g : Fin 8) (k : Fin 160) (i : Fin 1152) :
    (iblk m c 0 t : Vec Ideal S8x160x1152 .f32) (ix3 g k i)
      = (V m c main_v1 : S128x160x1152.Idx → Elt Ideal .f32) (ix3 (rowOf t g) k i) := by
  obtain ⟨⟨e0, e1, e2⟩, -⟩ := index_facts t
  show V m c main_v1 (((cfg0.win 0).blk t).view.emb (ix3 g k i)) = V m c main_v1 _
  refine congrArg (V m c main_v1) (funext fun a => Fin.ext ?_)
  match a with
  | ⟨0, _⟩ => show win0_0.index t (0 : Fin 3) * 8 + 1 * g.val = 8 * t.val + g.val; omega
  | ⟨1, _⟩ => show win0_0.index t (1 : Fin 3) * 160 + 1 * k.val = k.val; omega
  | ⟨2, _⟩ => show win0_0.index t (2 : Fin 3) * 1152 + 1 * i.val = i.val; omega

/-- Every point's block of the logits is the whole array. -/
theorem iblk1_apply (t : Fin cfg0.N) (o : Fin 10) (i : Fin 1152) :
    (iblk m c 1 t : Vec Ideal S10x1152 .f32) (ix2 o i) = (V m c main_v2 : S10x1152.Idx → Elt Ideal .f32) (ix2 o i) := by
  obtain ⟨-, ⟨e0, e1⟩, -⟩ := index_facts t
  show V m c main_v2 (((cfg0.win 1).blk t).view.emb (ix2 o i)) = V m c main_v2 _
  refine congrArg (V m c main_v2) (funext fun a => Fin.ext ?_)
  match a with
  | ⟨0, _⟩ => show win0_1.index t (0 : Fin 2) * 10 + 1 * o.val = o.val; omega
  | ⟨1, _⟩ => show win0_1.index t (1 : Fin 2) * 1152 + 1 * i.val = i.val; omega

/-! ## The input blocks with real witnesses -/

variable (U : Fin 128 → Fin 1152 → Fin 10 → Fin 16 → ℝ) (B : Fin 1152 → Fin 10 → ℝ)

/-- If the first argument holds the reals `U`, point `t`'s block of prediction vectors holds those of its 8 batch elements. -/
theorem iblk0_real
    (hU : ∀ n i o d, (m ((c : Thread nD τ).loc main_arg0) : S128x1152x10x16.Idx → EReal) (ix4 n i o d) = ((U n i o d : ℝ) : EReal))
    (t : Fin cfg0.N) (g : Fin 8) (o : Fin 10) (d : Fin 16) (i : Fin 1152) (k : Fin 160) (hk : k.val = 16 * o.val + d.val) :
    (iblk m c 0 t : Vec Ideal S8x160x1152 .f32) (ix3 g k i) = ((U (rowOf t g) i o d : ℝ) : EReal) :=
  (iblk0_apply m c t g k i).trans ((entry_v1 m c (rowOf t g) k i o d hk).trans (hU (rowOf t g) i o d))

/-- If the second argument holds the reals `B`, every point's block of logits holds them, transposed. -/
theorem iblk1_real
    (hB : ∀ i o, (m ((c : Thread nD τ).loc main_arg1) : S1152x10.Idx → EReal) (ix2 i o) = ((B i o : ℝ) : EReal))
    (t : Fin cfg0.N) (o : Fin 10) (i : Fin 1152) :
    (iblk m c 1 t : Vec Ideal S10x1152 .f32) (ix2 o i) = ((B i o : ℝ) : EReal) :=
  (iblk1_apply m c t o i).trans ((entry_v2 m c o i).trans (hB i o))

/-! ## The result array as a function of the index -/

/-- Coordinate `k` of the flattened output capsules of batch element `n` after four updates of the logits. -/
def capsAt (n : Fin 128) (k : Fin 160) : ℝ := caps (U n) (logits (U n) B 4) (hi k) (lo k)

/-- The array of output capsules. -/
def capsArray : S128x160x1.Idx → Elt Ideal .f32 := fun j => ((capsAt U B (j 0) (j 1) : ℝ) : EReal)

/-! ## A block's stored values at any index of the block -/

/-- The stored output capsules of a block whose inputs hold reals, at any index of the block. -/
theorem blockV_at (U' : Fin 8 → Fin 1152 → Fin 10 → Fin 16 → ℝ) (x0 : Vec Ideal S8x160x1152 .f32) (x1 : Vec Ideal S10x1152 .f32)
    (hx0 : ∀ g o d i (k : Fin 160), k.val = 16 * o.val + d.val → x0 (ix3 g k i) = ((U' g i o d : ℝ) : EReal))
    (hx1 : ∀ o i, x1 (ix2 o i) = ((B i o : ℝ) : EReal)) (y : S8x160x1.Idx) :
    blockV x0 x1 y = ((caps (U' (y 0)) (logits (U' (y 0)) B 4) (hi (y 1)) (lo (y 1)) : ℝ) : EReal) := by
  obtain ⟨g, k, z, rfl⟩ : ∃ g k z, y = ix3 g k z := ⟨y 0, y 1, y 2, eq_ix3 y⟩
  obtain rfl : z = 0 := Subsingleton.elim _ _
  exact blockV_real U' B x0 x1 hx0 hx1 g (hi k) (lo k) k (hi_lo k)

/-! ## What each point writes back -/

/-- Point `t` writes back block `t` of the array of output capsules. -/
theorem flushed_caps
    (hU : ∀ n i o d, (m ((c : Thread nD τ).loc main_arg0) : S128x1152x10x16.Idx → EReal) (ix4 n i o d) = ((U n i o d : ℝ) : EReal))
    (hB : ∀ i o, (m ((c : Thread nD τ).loc main_arg1) : S1152x10.Idx → EReal) (ix2 i o) = ((B i o : ℝ) : EReal))
    (t : Fin cfg0.N) :
    (dats m 0 c).flushed 2 t = ((cfg0.win 2).blk t).view.read (Elt Ideal) (capsArray U B) := by
  obtain ⟨-, -, ⟨e0, e1, e2⟩, -⟩ := index_facts t
  show (cfg0.win 2).cut (grid0.coords t) ((dats m 0 c).after 2 t) = _
  rw [after0_2, out0_2_eq]
  funext y
  refine (blockV_at B (fun g => U (rowOf t g)) (iblk m c 0 t) (iblk m c 1 t)
    (iblk0_real m c U hU t) (iblk1_real m c B hB t) y).trans ?_
  have h0 : rowOf t (y 0) = ((cfg0.win 2).blk t).view.emb y 0 := Fin.ext (by
    show 8 * t.val + (y 0).val = win0_2.index t (0 : Fin 3) * 8 + 1 * (y 0).val
    omega)
  have h1 : y 1 = ((cfg0.win 2).blk t).view.emb y 1 := Fin.ext (by
    show (y 1).val = win0_2.index t (1 : Fin 3) * 160 + 1 * (y 1).val
    omega)
  exact congrArg₂ (fun a b => ((capsAt U B a b : ℝ) : EReal)) h0 h1

/-! ## The blocks cover the array -/

/-- An index of the array is in point `t`'s block iff each coordinate is in the block's range on its axis. -/
theorem mem_blk (t : Fin cfg0.N) (i : S128x160x1.Idx) :
    i ∈ ((cfg0.win 2).blk t).view.set ↔ ∀ a : Fin 3, win0_2.index t a * S8x160x1.size a ≤ (i a).val
      ∧ (i a).val < win0_2.index t a * S8x160x1.size a + S8x160x1.size a := by
  show i ∈ ((View.whole main_v3_0).slice (win0_2.rect t)).set ↔ _
  rw [View.set_slice_whole, Rect.mem_set_unit]
  exact Iff.rfl

/-- Row `n` of the array is in the block of point `n / 8`. -/
theorem cover (i : S128x160x1.Idx) :
    ∃ t : Fin cfg0.N, (cfg0.win 2).flush t = true ∧ i ∈ ((cfg0.win 2).blk t).view.set := by
  have hi0 : (i 0).val < 128 := (i 0).isLt
  have hi1 : (i 1).val < 160 := (i 1).isLt
  have hi2 : (i 2).val < 1 := (i 2).isLt
  obtain ⟨t, ht⟩ : ∃ t : Fin cfg0.N, t.val = (i 0).val / 8 :=
    ⟨⟨(i 0).val / 8, lt_of_lt_of_eq (by omega : (i 0).val / 8 < 16) N_0.symm⟩, rfl⟩
  obtain ⟨-, -, ⟨e0, e1, e2⟩, -⟩ := index_facts t
  refine ⟨t, flush0_2 t, ?_⟩
  rw [mem_blk]
  intro a
  match a with
  | ⟨0, _⟩ =>
    show win0_2.index t (0 : Fin 3) * 8 ≤ (i 0).val ∧ (i 0).val < win0_2.index t (0 : Fin 3) * 8 + 8
    omega
  | ⟨1, _⟩ =>
    show win0_2.index t (1 : Fin 3) * 160 ≤ (i 1).val ∧ (i 1).val < win0_2.index t (1 : Fin 3) * 160 + 160
    omega
  | ⟨2, _⟩ =>
    show win0_2.index t (2 : Fin 3) * 1 ≤ (i 2).val ∧ (i 2).val < win0_2.index t (2 : Fin 3) * 1 + 1
    omega

/-! ## The array after the region -/

/-- After the region the array of output capsules holds the real routing's, row by row. -/
theorem final_array
    (hU : ∀ n i o d, (m ((c : Thread nD τ).loc main_arg0) : S128x1152x10x16.Idx → EReal) (ix4 n i o d) = ((U n i o d : ℝ) : EReal))
    (hB : ∀ i o, (m ((c : Thread nD τ).loc main_arg1) : S1152x10.Idx → EReal) (ix2 i o) = ((B i o : ℝ) : EReal)) :
    (dats m 0 c).arrAt 2 cfg0.N = capsArray U B :=
  (dats m 0 c).arrAt_eq_of_cover 2 (capsArray U B) (fun t _ => flushed_caps m c U B hU hB t) cover

end W2

/-- After the region, coordinate `d` of output capsule `o` of batch element `n` is the real routing's after four updates
    of the logits. -/
theorem final_caps (m : (ℓ : Loc nD τ sig) → Buf (Elt Ideal) ℓ) (c : Dev nD)
    (U : Fin 128 → Fin 1152 → Fin 10 → Fin 16 → ℝ) (B : Fin 1152 → Fin 10 → ℝ)
    (hU : ∀ n i o d, (m ((c : Thread nD τ).loc main_arg0) : S128x1152x10x16.Idx → EReal) (ix4 n i o d) = ((U n i o d : ℝ) : EReal))
    (hB : ∀ i o, (m ((c : Thread nD τ).loc main_arg1) : S1152x10.Idx → EReal) (ix2 i o) = ((B i o : ℝ) : EReal))
    (n : Fin 128) (o : Fin 10) (d : Fin 16) (k : Fin 160) (hk : k.val = 16 * o.val + d.val) :
    ((dats m 0 c).arrAt 2 cfg0.N : S128x160x1.Idx → EReal) (ix3 n k 0)
      = ((caps (U n) (logits (U n) B 4) o d : ℝ) : EReal) := by
  refine (congrFun (W2.final_array m c U B hU hB) (ix3 n k 0)).trans ?_
  show ((caps (U n) (logits (U n) B 4) (hi k) (lo k) : ℝ) : EReal) = _
  rw [hi_of o d k hk, lo_of o d k hk]

end Cert.KernelIdeal.KR

end
-- ==== Proof.KArraysS.lean ====
/-
  The region's second output array as one function of the two arguments.

  The grid's point t handles the 8 batch elements 8 t .. 8 t + 7: it is handed rows 8 t .. 8 t + 7 of the permuted
  prediction vectors and the whole logits, and writes back the same rows of the output.  For real arguments U and B each
  written block is the corresponding block of the coefficient-weighted prediction vectors after four agreement updates,
  the blocks cover the array, so the array ends holding that function.
-/
import proofs.«174649_g90658169684170_cont_sun_m_702_26_alg».proof.Proof.KBlock
import proofs.«174649_g90658169684170_cont_sun_m_702_26_alg».proof.Proof.KHost
import proofs.«174649_g90658169684170_cont_sun_m_702_26_alg».proof.Proof.RouteReal
import proofs.«174649_g90658169684170_cont_sun_m_702_26_alg».proof.Proof.Gen.KernelIdeal.Frame
import Idealize.ShloMosaic.Lib.Pipeline.Value
import Idealize.ShloMosaic.Lib.ValueIdx

set_option synthInstance.maxSize 4096

noncomputable section

open scoped BigOperators

namespace Cert.KernelIdeal.KR.W3

open Cert.KernelIdeal Cert.KernelIdeal.Gen Cert.KernelIdeal.KR Idealize.ShloMosaic Idealize.ShloMosaic.TcCoe
open Idealize.ShloMosaic.ValueIdx Idealize.SL.Sem Cert.Route
open Idealize.ShloMosaic.Pipeline (Dat)

variable (m : (ℓ : Loc nD τ sig) → Buf (Elt Ideal) ℓ)
variable (U : Fin 128 → Fin 1152 → Fin 10 → Fin 16 → ℝ) (B : Fin 1152 → Fin 10 → ℝ)

/-- The weighted prediction vector of batch element `n` at flattened capsule coordinate `k` and input capsule `i`. -/
def weightedAt (n : Fin 128) (k : Fin 160) (i : Fin 1152) : ℝ :=
  U n i (hi k) (lo k) * coef (logits (U n) B 4) i (hi k)

/-- The whole output array. -/
def weighted : S128x160x1152.Idx → EReal := fun j => ((weightedAt U B (j 0) (j 1) (j 2) : ℝ) : EReal)

/-- The batch element that point `t` of the grid handles in row `g` of its block. -/
def rowOf (t : Fin cfg0.N) (g : Fin 8) : Fin 128 :=
  ⟨8 * t.val + g.val, by have := t.isLt; have := g.isLt; have hN : cfg0.N = 16 := N_0; omega⟩

/-- The windows' block indices, decided over the grid: the batch axis moves with the point, the others stay. -/
theorem index_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The first input block at point `t` is rows `8 t .. 8 t + 7` of the array the region finds. -/
theorem block0_apply (c : Dev nD) (t : Fin cfg0.N) (g : Fin 8) (k : Fin 160) (i : Fin 1152) :
    (iblk m c 0 t : Vec Ideal S8x160x1152 .f32) (ix3 g k i)
      = (V m c main_v1 : S128x160x1152.Idx → EReal) (ix3 (rowOf t g) k i) := by
  obtain ⟨e0, e1, e2, -⟩ := index_facts t
  show V m c main_v1 (((cfg0.win 0).blk t).view.emb (ix3 g k i)) = V m c main_v1 _
  refine congrArg _ (funext fun a => Fin.ext ?_)
  match a with
  | ⟨0, _⟩ => show win0_0.index t (0 : Fin 3) * 8 + 1 * g.val = 8 * t.val + g.val; omega
  | ⟨1, _⟩ => show win0_0.index t (1 : Fin 3) * 160 + 1 * k.val = k.val; omega
  | ⟨2, _⟩ => show win0_0.index t (2 : Fin 3) * 1152 + 1 * i.val = i.val; omega

/-- The second input block is the whole array at every point. -/
theorem block1_apply (c : Dev nD) (t : Fin cfg0.N) (o : Fin 10) (i : Fin 1152) :
    (iblk m c 1 t : Vec Ideal S10x1152 .f32) (ix2 o i) = (V m c main_v2 : S10x1152.Idx → EReal) (ix2 o i) := by
  obtain ⟨-, -, -, e3, e4, -⟩ := index_facts t
  show V m c main_v2 (((cfg0.win 1).blk t).view.emb (ix2 o i)) = V m c main_v2 _
  refine congrArg _ (funext fun a => Fin.ext ?_)
  match a with
  | ⟨0, _⟩ => show win0_1.index t (0 : Fin 2) * 10 + 1 * o.val = o.val; omega
  | ⟨1, _⟩ => show win0_1.index t (1 : Fin 2) * 1152 + 1 * i.val = i.val; omega

/-- What point `t` writes back is block `t` of the whole output array. -/
theorem flushed_eq (c : Dev nD)
    (hU : ∀ n i o d, (m ((c : Thread nD τ).loc main_arg0) : S128x1152x10x16.Idx → EReal) (ix4 n i o d) = ((U n i o d : ℝ) : EReal))
    (hB : ∀ i o, (m ((c : Thread nD τ).loc main_arg1) : S1152x10.Idx → EReal) (ix2 i o) = ((B i o : ℝ) : EReal))
    (t : Fin cfg0.N) :
    (dats m 0 c).flushed 3 t = ((cfg0.win 3).blk t).view.read (Elt Ideal) (weighted U B) := by
  obtain ⟨-, -, -, -, -, e5, e6, e7⟩ := index_facts t
  have hx0 : ∀ (g : Fin 8) (o : Fin 10) (d : Fin 16) (i : Fin 1152) (k : Fin 160), k.val = 16 * o.val + d.val →
      (iblk m c 0 t : Vec Ideal S8x160x1152 .f32) (ix3 g k i) = ((U (rowOf t g) i o d : ℝ) : EReal) := fun g o d i k hk =>
    ((block0_apply m c t g k i).trans (entry_v1 m c (rowOf t g) k i o d hk)).trans (hU (rowOf t g) i o d)
  have hx1 : ∀ (o : Fin 10) (i : Fin 1152), (iblk m c 1 t : Vec Ideal S10x1152 .f32) (ix2 o i) = ((B i o : ℝ) : EReal) :=
    fun o i => ((block1_apply m c t o i).trans (entry_v2 m c o i)).trans (hB i o)
  show (cfg0.win 3).cut (grid0.coords t) ((dats m 0 c).after 3 t) = _
  rw [after0_3, out0_3_eq]
  refine funext fun (y : S8x160x1152.Idx) => ?_
  obtain ⟨g, k, i, rfl⟩ : ∃ (g : Fin 8) (k : Fin 160) (i : Fin 1152), y = ix3 g k i := ⟨y 0, y 1, y 2, eq_ix3 y⟩
  show blockS (iblk m c 0 t) (iblk m c 1 t) (ix3 g k i) = weighted U B (((cfg0.win 3).blk t).view.emb (ix3 g k i))
  refine (blockS_real (fun g => U (rowOf t g)) B (iblk m c 0 t) (iblk m c 1 t) hx0 hx1 g (hi k) (lo k) i k (hi_lo k)).trans ?_
  have hemb : ((cfg0.win 3).blk t).view.emb (ix3 g k i) = (ix3 (rowOf t g) k i : S128x160x1152.Idx) := by
    refine funext fun a => Fin.ext ?_
    match a with
    | ⟨0, _⟩ => show win0_3.index t (0 : Fin 3) * 8 + 1 * g.val = 8 * t.val + g.val; omega
    | ⟨1, _⟩ => show win0_3.index t (1 : Fin 3) * 160 + 1 * k.val = k.val; omega
    | ⟨2, _⟩ => show win0_3.index t (2 : Fin 3) * 1152 + 1 * i.val = i.val; omega
  exact (congrArg (weighted U B) hemb).symm

/-- An index of the array is in point `t`'s block iff each coordinate is in the block's range on its axis. -/
theorem mem_blk (t : Fin cfg0.N) (j : S128x160x1152.Idx) :
    j ∈ ((cfg0.win 3).blk t).view.set ↔ ∀ a : Fin 3, win0_3.index t a * S8x160x1152.size a ≤ (j a).val
      ∧ (j a).val < win0_3.index t a * S8x160x1152.size a + S8x160x1152.size a := by
  show j ∈ ((View.whole main_v3_1).slice (win0_3.rect t)).set ↔ _
  rw [View.set_slice_whole, Rect.mem_set_unit]
  exact Iff.rfl

/-- Every index of the array is in the block of the point that handles its batch element. -/
theorem cover (j : S128x160x1152.Idx) :
    ∃ t : Fin cfg0.N, (cfg0.win 3).flush t = true ∧ j ∈ ((cfg0.win 3).blk t).view.set := by
  have hN : cfg0.N = 16 := N_0
  have h0 : (j 0).val < 128 := (j 0).isLt
  have h1 : (j 1).val < 160 := (j 1).isLt
  have h2 : (j 2).val < 1152 := (j 2).isLt
  obtain ⟨t, ht⟩ : ∃ t : Fin cfg0.N, t.val = (j 0).val / 8 := ⟨⟨(j 0).val / 8, by omega⟩, rfl⟩
  obtain ⟨-, -, -, -, -, e5, e6, e7⟩ := index_facts t
  refine ⟨t, flush0_3 t, ?_⟩
  rw [mem_blk]
  intro a
  match a with
  | ⟨0, _⟩ =>
    show win0_3.index t (0 : Fin 3) * 8 ≤ (j 0).val ∧ (j 0).val < win0_3.index t (0 : Fin 3) * 8 + 8
    omega
  | ⟨1, _⟩ =>
    show win0_3.index t (1 : Fin 3) * 160 ≤ (j 1).val ∧ (j 1).val < win0_3.index t (1 : Fin 3) * 160 + 160
    omega
  | ⟨2, _⟩ =>
    show win0_3.index t (2 : Fin 3) * 1152 ≤ (j 2).val ∧ (j 2).val < win0_3.index t (2 : Fin 3) * 1152 + 1152
    omega

/-- The array after the run is the whole output array. -/
theorem final (c : Dev nD)
    (hU : ∀ n i o d, (m ((c : Thread nD τ).loc main_arg0) : S128x1152x10x16.Idx → EReal) (ix4 n i o d) = ((U n i o d : ℝ) : EReal))
    (hB : ∀ i o, (m ((c : Thread nD τ).loc main_arg1) : S1152x10.Idx → EReal) (ix2 i o) = ((B i o : ℝ) : EReal)) :
    ((dats m 0 c).arrAt 3 cfg0.N : S128x160x1152.Idx → EReal) = weighted U B :=
  (dats m 0 c).arrAt_eq_of_cover 3 (weighted U B) (fun t _ => flushed_eq m U B c hU hB t) cover

end Cert.KernelIdeal.KR.W3

namespace Cert.KernelIdeal.KR

open Cert.KernelIdeal Cert.KernelIdeal.Gen Idealize.ShloMosaic Idealize.ShloMosaic.TcCoe
open Idealize.ShloMosaic.ValueIdx Idealize.SL.Sem

/-- THE SECOND OUTPUT ARRAY AT AN INDEX: for real arguments `U` and `B` its entry `(n, 16 o + d, i)` is the
    prediction vector `U n i o d` weighted by the coupling coefficient of the logits after four agreement updates. -/
theorem final_s1 (m : (ℓ : Loc nD τ sig) → Buf (Elt Ideal) ℓ) (c : Dev nD)
    (U : Fin 128 → Fin 1152 → Fin 10 → Fin 16 → ℝ) (B : Fin 1152 → Fin 10 → ℝ)
    (hU : ∀ n i o d, (m ((c : Thread nD τ).loc main_arg0) : S128x1152x10x16.Idx → EReal) (ix4 n i o d) = ((U n i o d : ℝ) : EReal))
    (hB : ∀ i o, (m ((c : Thread nD τ).loc main_arg1) : S1152x10.Idx → EReal) (ix2 i o) = ((B i o : ℝ) : EReal))
    (n : Fin 128) (i : Fin 1152) (o : Fin 10) (d : Fin 16) (k : Fin 160) (hk : k.val = 16 * o.val + d.val) :
    ((dats m 0 c).arrAt 3 cfg0.N : S128x160x1152.Idx → EReal) (ix3 n k i)
      = ((U n i o d * Cert.Route.coef (Cert.Route.logits (U n) B 4) i o : ℝ) : EReal) := by
  refine (congrFun (W3.final m U B c hU hB) (ix3 n k i)).trans ?_
  show ((U n i (hi k) (lo k) * Cert.Route.coef (Cert.Route.logits (U n) B 4) i (hi k) : ℝ) : EReal) = _
  rw [hi_of o d k hk, lo_of o d k hk]

end Cert.KernelIdeal.KR

end
-- ==== Proof.RouteArrays.lean ====
/-
  The two results of the routing as whole arrays of extended reals, from real prediction vectors U n i o d over the 128
  batch elements n and real initial logits B i o: the output capsules after five rounds, [128, 10, 16], and the last
  round's coefficient-weighted prediction vectors, [128, 1152, 10, 16].
-/
import proofs.«174649_g90658169684170_cont_sun_m_702_26_alg».proof.Proof.RouteReal
import Idealize.ShloMosaic.Lib.ValueIdx

noncomputable section

open Idealize.ShloMosaic Idealize.ShloMosaic.ValueIdx

namespace Cert.Route

/-- The output capsules of every batch element after four agreement updates and a fifth round. -/
def capsArr (U : Fin 128 → Fin 1152 → Fin 10 → Fin 16 → ℝ) (B : Fin 1152 → Fin 10 → ℝ) :
    (⟨3, ![128, 10, 16]⟩ : Shape).Idx → EReal :=
  fun j => ((caps (U (j 0)) (logits (U (j 0)) B 4) (j 1) (j 2) : ℝ) : EReal)

/-- The fifth round's weighted prediction vectors of every batch element. -/
def s1Arr (U : Fin 128 → Fin 1152 → Fin 10 → Fin 16 → ℝ) (B : Fin 1152 → Fin 10 → ℝ) :
    (⟨4, ![128, 1152, 10, 16]⟩ : Shape).Idx → EReal :=
  fun j => ((U (j 0) (j 1) (j 2) (j 3) * coef (logits (U (j 0)) B 4) (j 1) (j 2) : ℝ) : EReal)

theorem capsArr_apply (U : Fin 128 → Fin 1152 → Fin 10 → Fin 16 → ℝ) (B : Fin 1152 → Fin 10 → ℝ) (n : Fin 128) (o : Fin 10)
    (d : Fin 16) : capsArr U B (ix3 n o d) = ((caps (U n) (logits (U n) B 4) o d : ℝ) : EReal) := rfl

theorem s1Arr_apply (U : Fin 128 → Fin 1152 → Fin 10 → Fin 16 → ℝ) (B : Fin 1152 → Fin 10 → ℝ) (n : Fin 128) (i : Fin 1152)
    (o : Fin 10) (d : Fin 16) : s1Arr U B (ix4 n i o d) = ((U n i o d * coef (logits (U n) B 4) i o : ℝ) : EReal) := rfl

end Cert.Route

end
-- ==== Proof.KRun.lean ====
/-
  The kernel program's run, read: from a memory whose two arguments hold real numbers, every execution ends with the
  first result at the output capsules of the real routing and the second at its weighted prediction vectors, the
  arguments unchanged.  The region leaves its two output arrays in the flattened layout [128, 160, 1] and
  [128, 160, 1152]; the host lines after it reshape the first to [128, 10, 16] and reshape and transpose the second to
  [128, 1152, 10, 16].
-/
import proofs.«174649_g90658169684170_cont_sun_m_702_26_alg».proof.Proof.KArrays
import proofs.«174649_g90658169684170_cont_sun_m_702_26_alg».proof.Proof.KArraysS
import proofs.«174649_g90658169684170_cont_sun_m_702_26_alg».proof.Proof.KHost
import proofs.«174649_g90658169684170_cont_sun_m_702_26_alg».proof.Proof.RouteArrays
import proofs.«174649_g90658169684170_cont_sun_m_702_26_alg».proof.Proof.Gen.KernelIdeal.Frame

set_option synthInstance.maxSize 4096

noncomputable section

namespace Cert.KernelIdeal.KR

open Cert.KernelIdeal Cert.KernelIdeal.Gen Idealize.ShloMosaic Idealize.ShloMosaic.TcCoe Idealize.ShloMosaic.ValueIdx Idealize.SL.Sem Cert.Route

variable (m : (ℓ : Loc nD τ sig) → Buf (Elt Ideal) ℓ) (ρ : Dev nD → PrngReg)
variable (U : Dev nD → Fin 128 → Fin 1152 → Fin 10 → Fin 16 → ℝ) (B : Dev nD → Fin 1152 → Fin 10 → ℝ)

/-- The first result after the host tail is the capsule array. -/
theorem tail_caps
    (hU : ∀ c n i o d, (m ((c : Thread nD τ).loc main_arg0) : S128x1152x10x16.Idx → EReal) (ix4 n i o d) = ((U c n i o d : ℝ) : EReal))
    (hB : ∀ c i o, (m ((c : Thread nD τ).loc main_arg1) : S1152x10.Idx → EReal) (ix2 i o) = ((B c i o : ℝ) : EReal)) (c : Dev nD) :
    (Pipeline.afterTail₀ cfgs (dats m) 0 (V0 m) [hostOps1] c main_v4 : S128x10x16.Idx → EReal) = capsArr (U c) (B c) := by
  funext j
  obtain ⟨n, o, d, rfl⟩ : ∃ (n : Fin 128) (o : Fin 10) (d : Fin 16), j = ix3 n o d := ⟨j 0, j 1, j 2, eq_ix3 j⟩
  have hk : (⟨16 * o.val + d.val, by have := o.isLt; have := d.isLt; omega⟩ : Fin 160).val = 16 * o.val + d.val := rfl
  exact (tail_v4 m c n o d _ hk).trans (final_caps m c (U c) (B c) (hU c) (hB c) n o d _ hk)

/-- The second result after the host tail is the array of weighted prediction vectors. -/
theorem tail_s1
    (hU : ∀ c n i o d, (m ((c : Thread nD τ).loc main_arg0) : S128x1152x10x16.Idx → EReal) (ix4 n i o d) = ((U c n i o d : ℝ) : EReal))
    (hB : ∀ c i o, (m ((c : Thread nD τ).loc main_arg1) : S1152x10.Idx → EReal) (ix2 i o) = ((B c i o : ℝ) : EReal)) (c : Dev nD) :
    (Pipeline.afterTail₀ cfgs (dats m) 0 (V0 m) [hostOps1] c main_v6 : S128x1152x10x16.Idx → EReal) = s1Arr (U c) (B c) := by
  funext j
  obtain ⟨n, i, o, d, rfl⟩ : ∃ (n : Fin 128) (i : Fin 1152) (o : Fin 10) (d : Fin 16), j = ix4 n i o d :=
    ⟨j 0, j 1, j 2, j 3, eq_ix4 j⟩
  have hk : (⟨16 * o.val + d.val, by have := o.isLt; have := d.isLt; omega⟩ : Fin 160).val = 16 * o.val + d.val := rfl
  exact (tail_v6 m c n i o d _ hk).trans (final_s1 m c (U c) (B c) (hU c) (hB c) n i o d _ hk)

/-- The kernel program's run with both results named. -/
theorem kernel_run
    (hU : ∀ c n i o d, (m ((c : Thread nD τ).loc main_arg0) : S128x1152x10x16.Idx → EReal) (ix4 n i o d) = ((U c n i o d : ℝ) : EReal))
    (hB : ∀ c i o, (m ((c : Thread nD τ).loc main_arg1) : S1152x10.Idx → EReal) (ix2 i o) = ((B c i o : ℝ) : EReal)) :
    θ_run (defs (F := Ideal)) (onTc (τ := τ) (main (F := Ideal))) ⟨m, fun _ => 0, ρ⟩ (fun r => ∀ c : Dev nD,
      r.2.mem ((c.tc : Thread nD τ).loc main_v4) = capsArr (U c) (B c)
      ∧ r.2.mem ((c.tc : Thread nD τ).loc main_v6) = s1Arr (U c) (B c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v4 (Pipeline.mem_restRefs_of main_v4 (by decide) (by decide))).trans (tail_caps m U B hU hB c),
      ((h c).2 main_v6 (Pipeline.mem_restRefs_of main_v6 (by decide) (by decide))).trans (tail_s1 m U B hU hB c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KR

end
-- ==== Proof.FiniteInputs.lean ====
import proofs.«174649_g90658169684170_cont_sun_m_702_26_alg».proof.Pre_finite_inputs
import proofs.«174649_g90658169684170_cont_sun_m_702_26_alg».proof.Proof.Gen.Pre_finite_inputs
import Idealize.ShloMosaic.Lib.ReduceAll
import Idealize.ShloMosaic.Lib.ValueIdx
import Idealize.ShloMosaic.PureOps.Ideal

/-!
  The precondition read back at the exact instance: both arguments hold only real numbers.

  The precondition is the conjunction of two predicates "every element has absolute value strictly below
  plus infinity". On the extended reals the absolute value is `max x (-x)`, which is `⊤` at both
  infinities, so each element is the image of a real number, namely of its own real part.
-/

namespace Cert.Route.Finite

open Idealize.ShloMosaic

/-- An extended real whose absolute value `max x (-x)` lies strictly below `⊤` is a real number. -/
theorem coe_toReal_of_abs_lt_top (x : EReal) (h : max x (-x) < ⊤) : x = ((x.toReal : ℝ) : EReal) := by
  induction x using EReal.rec with
  | bot => exact absurd h (by simp)
  | coe r => rfl
  | top => exact absurd h (by simp)

/-- The word of plus infinity denotes `⊤`. -/
theorem ofBits_posInf : Ideal.ofBits .f32 0x7F800000#32 = (⊤ : EReal) := by
  simp [Ideal.ofBits, Ideal.ieee]

/-- A comparison "strictly below" of extended reals that answers the bit 1 holds. -/
theorem lt_of_cmp_olt (a b : EReal) (h : Ideal.cmp .olt a b = 1#1) : a < b := by
  by_contra hlt
  have : Ideal.cmp .olt a b = 0#1 := by simp [Ideal.cmp, hlt]
  rw [this] at h
  exact absurd h (by decide)

/-- The element test of the precondition, "the absolute value is strictly below plus infinity", answering the
    bit 1 says that the element is a real number. -/
theorem real_of_test (x : Ideal .f32)
    (h : FloatOps.cmpf (F := Ideal) .olt (FloatOps.hostAbsf x) (FloatOps.ofBits (F := Ideal) .f32 0x7F800000#32) = 1#1) :
    (x : EReal) = ((EReal.toReal x : ℝ) : EReal) := by
  have h1 : Ideal.cmp .olt (max x (-x)) (Ideal.ofBits .f32 0x7F800000#32) = 1#1 := h
  rw [ofBits_posInf] at h1
  exact coe_toReal_of_abs_lt_top x (lt_of_cmp_olt _ _ h1)

/-- The scalar shape has a single index. -/
local instance subsingleton_scalarIdx : Subsingleton Cert.Pre_finite_inputs.S_.Idx :=
  ⟨fun a b => funext fun d => d.elim0⟩

/-- Under the precondition both arguments are arrays of real numbers. -/
theorem reals_of_pre (x0 : FVec Ideal Cert.Pre_finite_inputs.S128x1152x10x16 .f32)
    (x1 : FVec Ideal Cert.Pre_finite_inputs.S1152x10 .f32)
    (h : Cert.Pre_finite_inputs.fn (F := Ideal) x0 x1 = (fun _ => 1#1)) :
    (∃ U : Fin 128 → Fin 1152 → Fin 10 → Fin 16 → ℝ,
        ∀ n i o d, x0 (Idealize.ShloMosaic.ValueIdx.ix4 n i o d) = ((U n i o d : ℝ) : EReal))
    ∧ (∃ b : Fin 1152 → Fin 10 → ℝ,
        ∀ i o, x1 (Idealize.ShloMosaic.ValueIdx.ix2 i o) = ((b i o : ℝ) : EReal)) := by
  have h0 := congrFun h ValueIdx.ix0
  dsimp only [Cert.Pre_finite_inputs.fn] at h0
  obtain ⟨ha, hb⟩ := IntOp.andi_eq_one.1 h0
  refine ⟨⟨fun n i o d => (x0 (ValueIdx.ix4 n i o d)).toReal, fun n i o d => ?_⟩,
    ⟨fun i o => (x1 (ValueIdx.ix2 i o)).toReal, fun i o => ?_⟩⟩
  · exact real_of_test _ (Host.reduce_andi_all _ _ _ _ _ ha (ValueIdx.ix4 n i o d))
  · exact real_of_test _ (Host.reduce_andi_all _ _ _ _ _ hb (ValueIdx.ix2 i o))

end Cert.Route.Finite
-- ==== Proof.LibHostRowMax.lean ====
/-
  The host's maximum over one axis, read at the ideal instance.

  A reference that normalises a row of scores first takes the row's largest entry with a host reduction whose
  body is the maximum and whose initial value is the f32 word of -∞.  At the ideal instance that word is the
  bottom of the extended reals, the body is the lattice's maximum, and the reduction over ONE axis, read at a
  reduced index j, is the supremum over that axis's coordinates k of the operand at "j with k put back"
  (Shape.Reduces.lift).  Stated for any shapes; a certificate instantiates it at its literal ones and rewrites
  the lifted index into coordinates.
-/
import Idealize.ShloMosaic.PureOps.Ideal.Laws
import Idealize.ShloMosaic.PureOps.Reduce

noncomputable section

open Idealize.ShloMosaic

namespace Cert.Lib.HostRowMax

/-- The f32 word 0xFF800000 denotes -∞, the bottom of the extended reals. -/
theorem ofBits_negInf : Ideal.ofBits .f32 0xFF800000#32 = (⊥ : EReal) := by
  simp [Ideal.ofBits, Ideal.ieee]

/-- Folding the maximum from the bottom over a finite set is the supremum over it. -/
theorem fold_max_bot {β : Type*} (T : Finset β) (f : β → EReal) : T.fold max (⊥ : EReal) f = T.sup f := by
  classical
  induction T using Finset.induction_on with
  | empty => simp
  | insert b T hb ih => rw [Finset.fold_insert hb, Finset.sup_insert, ih]

/-- From -∞ the host's reduction with a maximum body over one axis, at the reduced index j, is the supremum over
    that axis of the operand. -/
theorem hostReduce_max {s t u : Shape} {a : Fin s.rank} (x : FVec Ideal s .f32) (h' : s.ReducesTo [a] t)
    (h : s.Reduces [a] t) (hu : 0 < u.numel) (j : t.Idx) :
    Host.reduce FloatOps.maximumf x (constant u .f32 0xFF800000#32) h' hu j
      = Finset.univ.sup fun k : Fin (s.size a) => x (h.lift j k) := by
  rw [Host.reduce_eq_fold_single FloatOps.maximumf x _ h' h hu]
  have hi : (constant (F := Ideal) u .f32 0xFF800000#32) (Shape.Idx.first hu) = (⊥ : EReal) := ofBits_negInf
  rw [hi]
  exact fold_max_bot Finset.univ (x ∘ h.lift j)

end Cert.Lib.HostRowMax

end
-- ==== Proof.RefSoftmax.lean ====
/-
  The reference's host operations of one routing round, read at an index on the extended reals.

  Each piece of a round is one small function of arrays, spelt as the reference spells it (a row softmax with the
  row maximum subtracted, the coefficient-weighted sum over the input capsules, the squared lengths, the squashing,
  the agreement), and one reading lemma: where the operands hold real numbers at the indices of one batch element,
  the result holds the real number the routing formulas of that element give.
-/
import proofs.«174649_g90658169684170_cont_sun_m_702_26_alg».proof.Proof.Gen.ReferenceIdeal
import proofs.«174649_g90658169684170_cont_sun_m_702_26_alg».proof.Proof.RouteReal
import proofs.«174649_g90658169684170_cont_sun_m_702_26_alg».proof.Proof.LibHostRowMax
import Idealize.ShloMosaic.Lib.IdealHost
import Idealize.ShloMosaic.Lib.Pipeline.Value

noncomputable section

open scoped BigOperators

namespace Cert.ReferenceIdeal.RefValue

open Cert.ReferenceIdeal Cert.ReferenceIdeal.Gen Idealize.ShloMosaic Idealize.ShloMosaic.ValueIdx Cert.Route

/-- The host's exponential at an index is the exponential of the entry. -/
theorem hostExp_apply {s : Shape} {φ : FTy} (x : FVec Ideal s φ) (i : s.Idx) : Host.exp x i = Ideal.exp (x i) := rfl

/-! ### The row softmax on [147456, 10] -/

/-- A column [147456] broadcast to [147456, 1] and then along the rows to [147456, 10] reads the column's entry of the row. -/
theorem colBcast147456_apply (mv : FVec Ideal S147456 .f32) (r : Fin 147456) (o : Fin 10) :
    broadcastInDim S147456x10 ![0, 1] bcast_S147456x1_S147456x10_0_1 (broadcastInDim S147456x1 ![0] bcast_S147456_S147456x1_0 mv) (ix2 r o)
      = mv (ix1 r) := by
  refine (broadcastInDim_apply _ _ _ (ix2 r o) (ix2 r (0 : Fin 1)) ?_).trans ?_
  · intro a; match a with
    | ⟨0, _⟩ => rfl
    | ⟨1, _⟩ => rfl
  · refine broadcastInDim_apply _ _ _ (ix2 r (0 : Fin 1)) (ix1 r) ?_
    intro a; match a with
    | ⟨0, _⟩ => rfl

/-- The row maximum as the reference takes it: the maximum of -∞ and the host's max-reduction from -∞. -/
def rowMax147456 (x : FVec Ideal S147456x10 .f32) : FVec Ideal S147456 .f32 :=
  maximumf (broadcastInDim S147456 ![] bcast_S_S147456 (constant S_ .f32 0xFF800000#32))
    (Host.reduce FloatOps.maximumf x (constant S_ .f32 0xFF800000#32) reducesTo_S147456x10_S147456_d1 h_S_)

/-- The row maximum of a row of reals is a real. -/
theorem rowMax147456_real (x : FVec Ideal S147456x10 .f32) (r : Fin 147456) (l : Fin 10 → ℝ)
    (hx : ∀ o, x (ix2 r o) = ((l o : ℝ) : EReal)) : ∃ m : ℝ, rowMax147456 x (ix1 r) = ((m : ℝ) : EReal) := by
  have hR : S147456x10.Reduces [1] S147456 :=
    ⟨reducesTo_S147456x10_S147456_d1.1, by decide, reducesTo_S147456x10_S147456_d1.2⟩
  have hlift : ∀ k : Fin 10, hR.lift (ix1 r) k = ix2 r k := fun k =>
    funext fun a => Fin.ext (by match a with
      | ⟨0, _⟩ => rfl
      | ⟨1, _⟩ => rfl)
  have hred : Host.reduce FloatOps.maximumf x (constant S_ .f32 0xFF800000#32) reducesTo_S147456x10_S147456_d1 h_S_ (ix1 r)
      = Finset.univ.sup fun k : Fin 10 => ((l k : ℝ) : EReal) := by
    refine (Cert.Lib.HostRowMax.hostReduce_max x reducesTo_S147456x10_S147456_d1 hR h_S_ (ix1 r)).trans ?_
    refine Finset.sup_congr rfl fun k _ => ?_
    exact (congrArg x (hlift k)).trans (hx k)
  obtain ⟨k, -, hk⟩ := Finset.exists_mem_eq_sup (Finset.univ : Finset (Fin 10)) Finset.univ_nonempty
    (fun k : Fin 10 => ((l k : ℝ) : EReal))
  refine ⟨l k, ?_⟩
  refine (maximumf_apply _ _ (ix1 r)).trans ?_
  rw [hred, hk]
  have hb : broadcastInDim S147456 ![] bcast_S_S147456 (constant (F := Ideal) S_ .f32 0xFF800000#32) (ix1 r) = (⊥ : EReal) :=
    (broadcastInDim_scalar_apply _ _ _).trans Cert.Lib.HostRowMax.ofBits_negInf
  rw [hb]
  exact max_eq_right bot_le

/-- The numerator of the row softmax: the exponential of the entries less the row maximum. -/
def expShift147456 (x : FVec Ideal S147456x10 .f32) : FVec Ideal S147456x10 .f32 :=
  Host.exp (subf x (broadcastInDim S147456x10 ![0, 1] bcast_S147456x1_S147456x10_0_1
    (broadcastInDim S147456x1 ![0] bcast_S147456_S147456x1_0 (rowMax147456 x))))

/-- The quotient of an array by its row sums. -/
def rowQuot147456 (e : FVec Ideal S147456x10 .f32) : FVec Ideal S147456x10 .f32 :=
  Host.divf e (broadcastInDim S147456x10 ![0, 1] bcast_S147456x1_S147456x10_0_1
    (broadcastInDim S147456x1 ![0] bcast_S147456_S147456x1_0
      (Host.reduceAdd e (constant S_ .f32 0x00000000#32) reducesTo_S147456x10_S147456_d1 h_S_)))

/-- The host's sum over the second axis of a [147456, 10] array at a row is the sum of the row. -/
theorem rowSum147456_apply (e : FVec Ideal S147456x10 .f32) (r : Fin 147456) :
    Host.reduceAdd e (constant S_ .f32 0x00000000#32) reducesTo_S147456x10_S147456_d1 h_S_ (ix1 r)
      = (0 : EReal) + ∑ k : Fin 10, e (ix2 r k) := by
  have hR : S147456x10.Reduces [1] S147456 :=
    ⟨reducesTo_S147456x10_S147456_d1.1, by decide, reducesTo_S147456x10_S147456_d1.2⟩
  have hlift : ∀ k : Fin 10, hR.lift (ix1 r) k = ix2 r k := fun k =>
    funext fun a => Fin.ext (by match a with
      | ⟨0, _⟩ => rfl
      | ⟨1, _⟩ => rfl)
  refine (hostReduceAdd_apply e _ reducesTo_S147456x10_S147456_d1 h_S_ (ix1 r)).trans ?_
  refine (Ideal.hostReduceAdd_single reducesTo_S147456x10_S147456_d1 hR e _ (ix1 r)).trans ?_
  have h0 : (constant (F := Ideal) S_ .f32 0x00000000#32) (Shape.Idx.first h_S_) = (0 : EReal) := Ideal.ofBits_zero_f32
  rw [h0]
  refine congrArg ((0 : EReal) + ·) ?_
  exact Finset.sum_congr rfl fun k _ => congrArg e (hlift k)

/-- THE ROW SOFTMAX READ AT AN ENTRY: on a row of reals it is the coupling coefficient of that row. -/
theorem softmax147456_apply (x : FVec Ideal S147456x10 .f32) (r : Fin 147456) (l : Fin 10 → ℝ)
    (hx : ∀ o, x (ix2 r o) = ((l o : ℝ) : EReal)) (o : Fin 10) :
    rowQuot147456 (expShift147456 x) (ix2 r o) = ((coef (fun _ : Unit => l) () o : ℝ) : EReal) := by
  obtain ⟨m, hm⟩ := rowMax147456_real x r l hx
  have hE : ∀ k : Fin 10, expShift147456 x (ix2 r k) = Ideal.exp (((l k : ℝ) : EReal) - ((m : ℝ) : EReal)) := by
    intro k
    refine (hostExp_apply _ (ix2 r k)).trans ?_
    rw [subf_apply, colBcast147456_apply, hm, hx k]
  refine (hostDivf_apply _ _ (ix2 r o)).trans ?_
  rw [colBcast147456_apply, rowSum147456_apply, hE o]
  simp only [hE]
  exact coef_shifted (fun _ : Unit => l) () m o

/-! ### The row softmax on [1152, 10] -/

/-- A column [1152] broadcast to [1152, 1] and then along the rows to [1152, 10] reads the column's entry of the row. -/
theorem colBcast1152_apply (mv : FVec Ideal S1152 .f32) (r : Fin 1152) (o : Fin 10) :
    broadcastInDim S1152x10 ![0, 1] bcast_S1152x1_S1152x10_0_1 (broadcastInDim S1152x1 ![0] bcast_S1152_S1152x1_0 mv) (ix2 r o)
      = mv (ix1 r) := by
  refine (broadcastInDim_apply _ _ _ (ix2 r o) (ix2 r (0 : Fin 1)) ?_).trans ?_
  · intro a; match a with
    | ⟨0, _⟩ => rfl
    | ⟨1, _⟩ => rfl
  · refine broadcastInDim_apply _ _ _ (ix2 r (0 : Fin 1)) (ix1 r) ?_
    intro a; match a with
    | ⟨0, _⟩ => rfl

/-- The row maximum as the reference takes it: the maximum of -∞ and the host's max-reduction from -∞. -/
def rowMax1152 (x : FVec Ideal S1152x10 .f32) : FVec Ideal S1152 .f32 :=
  maximumf (broadcastInDim S1152 ![] bcast_S_S1152 (constant S_ .f32 0xFF800000#32))
    (Host.reduce FloatOps.maximumf x (constant S_ .f32 0xFF800000#32) reducesTo_S1152x10_S1152_d1 h_S_)

/-- The row maximum of a row of reals is a real. -/
theorem rowMax1152_real (x : FVec Ideal S1152x10 .f32) (r : Fin 1152) (l : Fin 10 → ℝ)
    (hx : ∀ o, x (ix2 r o) = ((l o : ℝ) : EReal)) : ∃ m : ℝ, rowMax1152 x (ix1 r) = ((m : ℝ) : EReal) := by
  have hR : S1152x10.Reduces [1] S1152 :=
    ⟨reducesTo_S1152x10_S1152_d1.1, by decide, reducesTo_S1152x10_S1152_d1.2⟩
  have hlift : ∀ k : Fin 10, hR.lift (ix1 r) k = ix2 r k := fun k =>
    funext fun a => Fin.ext (by match a with
      | ⟨0, _⟩ => rfl
      | ⟨1, _⟩ => rfl)
  have hred : Host.reduce FloatOps.maximumf x (constant S_ .f32 0xFF800000#32) reducesTo_S1152x10_S1152_d1 h_S_ (ix1 r)
      = Finset.univ.sup fun k : Fin 10 => ((l k : ℝ) : EReal) := by
    refine (Cert.Lib.HostRowMax.hostReduce_max x reducesTo_S1152x10_S1152_d1 hR h_S_ (ix1 r)).trans ?_
    refine Finset.sup_congr rfl fun k _ => ?_
    exact (congrArg x (hlift k)).trans (hx k)
  obtain ⟨k, -, hk⟩ := Finset.exists_mem_eq_sup (Finset.univ : Finset (Fin 10)) Finset.univ_nonempty
    (fun k : Fin 10 => ((l k : ℝ) : EReal))
  refine ⟨l k, ?_⟩
  refine (maximumf_apply _ _ (ix1 r)).trans ?_
  rw [hred, hk]
  have hb : broadcastInDim S1152 ![] bcast_S_S1152 (constant (F := Ideal) S_ .f32 0xFF800000#32) (ix1 r) = (⊥ : EReal) :=
    (broadcastInDim_scalar_apply _ _ _).trans Cert.Lib.HostRowMax.ofBits_negInf
  rw [hb]
  exact max_eq_right bot_le

/-- The numerator of the row softmax: the exponential of the entries less the row maximum. -/
def expShift1152 (x : FVec Ideal S1152x10 .f32) : FVec Ideal S1152x10 .f32 :=
  Host.exp (subf x (broadcastInDim S1152x10 ![0, 1] bcast_S1152x1_S1152x10_0_1
    (broadcastInDim S1152x1 ![0] bcast_S1152_S1152x1_0 (rowMax1152 x))))

/-- The quotient of an array by its row sums. -/
def rowQuot1152 (e : FVec Ideal S1152x10 .f32) : FVec Ideal S1152x10 .f32 :=
  Host.divf e (broadcastInDim S1152x10 ![0, 1] bcast_S1152x1_S1152x10_0_1
    (broadcastInDim S1152x1 ![0] bcast_S1152_S1152x1_0
      (Host.reduceAdd e (constant S_ .f32 0x00000000#32) reducesTo_S1152x10_S1152_d1 h_S_)))

/-- The host's sum over the second axis of a [1152, 10] array at a row is the sum of the row. -/
theorem rowSum1152_apply (e : FVec Ideal S1152x10 .f32) (r : Fin 1152) :
    Host.reduceAdd e (constant S_ .f32 0x00000000#32) reducesTo_S1152x10_S1152_d1 h_S_ (ix1 r)
      = (0 : EReal) + ∑ k : Fin 10, e (ix2 r k) := by
  have hR : S1152x10.Reduces [1] S1152 :=
    ⟨reducesTo_S1152x10_S1152_d1.1, by decide, reducesTo_S1152x10_S1152_d1.2⟩
  have hlift : ∀ k : Fin 10, hR.lift (ix1 r) k = ix2 r k := fun k =>
    funext fun a => Fin.ext (by match a with
      | ⟨0, _⟩ => rfl
      | ⟨1, _⟩ => rfl)
  refine (hostReduceAdd_apply e _ reducesTo_S1152x10_S1152_d1 h_S_ (ix1 r)).trans ?_
  refine (Ideal.hostReduceAdd_single reducesTo_S1152x10_S1152_d1 hR e _ (ix1 r)).trans ?_
  have h0 : (constant (F := Ideal) S_ .f32 0x00000000#32) (Shape.Idx.first h_S_) = (0 : EReal) := Ideal.ofBits_zero_f32
  rw [h0]
  refine congrArg ((0 : EReal) + ·) ?_
  exact Finset.sum_congr rfl fun k _ => congrArg e (hlift k)

/-- THE ROW SOFTMAX READ AT AN ENTRY: on a row of reals it is the coupling coefficient of that row. -/
theorem softmax1152_apply (x : FVec Ideal S1152x10 .f32) (r : Fin 1152) (l : Fin 10 → ℝ)
    (hx : ∀ o, x (ix2 r o) = ((l o : ℝ) : EReal)) (o : Fin 10) :
    rowQuot1152 (expShift1152 x) (ix2 r o) = ((coef (fun _ : Unit => l) () o : ℝ) : EReal) := by
  obtain ⟨m, hm⟩ := rowMax1152_real x r l hx
  have hE : ∀ k : Fin 10, expShift1152 x (ix2 r k) = Ideal.exp (((l k : ℝ) : EReal) - ((m : ℝ) : EReal)) := by
    intro k
    refine (hostExp_apply _ (ix2 r k)).trans ?_
    rw [subf_apply, colBcast1152_apply, hm, hx k]
  refine (hostDivf_apply _ _ (ix2 r o)).trans ?_
  rw [colBcast1152_apply, rowSum1152_apply, hE o]
  simp only [hE]
  exact coef_shifted (fun _ : Unit => l) () m o

end Cert.ReferenceIdeal.RefValue

end
-- ==== Proof.RefPieces.lean ====
/-
  The pieces of one routing round as the reference spells them on arrays, each read at an index on the extended
  reals: the coefficients laid out beside the prediction vectors, the weighted sum over the input capsules, the
  squared lengths, the squashing, the agreement, and the two reshapes between [128, 1152, 10] and [147456, 10].
-/
import proofs.«174649_g90658169684170_cont_sun_m_702_26_alg».proof.Proof.Gen.ReferenceIdeal
import proofs.«174649_g90658169684170_cont_sun_m_702_26_alg».proof.Proof.RouteReal
import Idealize.ShloMosaic.Lib.IdealHost
import Idealize.ShloMosaic.Lib.Pipeline.Value

noncomputable section

open scoped BigOperators

namespace Cert.ReferenceIdeal.RefValue

open Cert.ReferenceIdeal Cert.ReferenceIdeal.Gen Idealize.ShloMosaic Idealize.ShloMosaic.ValueIdx Cert.Route

/-- The row of the flattened [147456, 10] array that holds batch element n's input capsule i. -/
def row (n : Fin 128) (i : Fin 1152) : Fin 147456 := ⟨n.val * 1152 + i.val, by have := n.isLt; have := i.isLt; omega⟩

/-- The logits [128, 1152, 10] flattened to [147456, 10]. -/
def flatV (L : FVec Ideal S128x1152x10 .f32) : FVec Ideal S147456x10 .f32 :=
  shapeCast _ L shapeCasts_S128x1152x10_S147456x10

theorem flatV_apply (L : FVec Ideal S128x1152x10 .f32) (n : Fin 128) (i : Fin 1152) (o : Fin 10) :
    flatV L (ix2 (row n i) o) = L (ix3 n i o) := by
  refine shapeCast_apply L _ (ix2 (row n i) o) (ix3 n i o) ?_
  rw [Shape.rowMajor_val_two, Shape.rowMajor_val_three]
  show (n.val * 1152 + i.val) * 10 + o.val = (n.val * 1152 + i.val) * 10 + o.val
  rfl

/-- The coefficients [147456, 10] laid out as [128, 1152, 10, 1] and repeated along the capsule coordinates. -/
def coefBig (c : FVec Ideal S147456x10 .f32) : FVec Ideal S128x1152x10x16 .f32 :=
  broadcastInDim S128x1152x10x16 ![0, 1, 2, 3] bcast_S128x1152x10x1_S128x1152x10x16_0_1_2_3
    (shapeCast _ c shapeCasts_S147456x10_S128x1152x10x1)

theorem coefBig_apply (c : FVec Ideal S147456x10 .f32) (n : Fin 128) (i : Fin 1152) (o : Fin 10) (d : Fin 16) :
    coefBig c (ix4 n i o d) = c (ix2 (row n i) o) := by
  refine (broadcastInDim_apply _ _ _ (ix4 n i o d) (ix4 n i o (0 : Fin 1)) ?_).trans ?_
  · intro a; match a with
    | ⟨0, _⟩ => rfl
    | ⟨1, _⟩ => rfl
    | ⟨2, _⟩ => rfl
    | ⟨3, _⟩ => rfl
  · refine shapeCast_apply c _ (ix4 n i o (0 : Fin 1)) (ix2 (row n i) o) ?_
    rw [Shape.rowMajor_val_two, Shape.rowMajor_val_four]
    show (n.val * 1152 + i.val) * 10 + o.val = ((n.val * 1152 + i.val) * 10 + o.val) * 1 + 0
    omega

/-- The first round's coefficients [1152, 10], the same for every batch element, laid out beside the prediction vectors. -/
def coefBig0 (c : FVec Ideal S1152x10 .f32) : FVec Ideal S128x1152x10x16 .f32 :=
  broadcastInDim S128x1152x10x16 ![0, 1, 2, 3] bcast_S1x1152x10x1_S128x1152x10x16_0_1_2_3
    (broadcastInDim S1x1152x10x1 ![1, 2] bcast_S1152x10_S1x1152x10x1_1_2 c)

theorem coefBig0_apply (c : FVec Ideal S1152x10 .f32) (n : Fin 128) (i : Fin 1152) (o : Fin 10) (d : Fin 16) :
    coefBig0 c (ix4 n i o d) = c (ix2 i o) := by
  refine (broadcastInDim_apply _ _ _ (ix4 n i o d) (ix4 (0 : Fin 1) i o (0 : Fin 1)) ?_).trans ?_
  · intro a; match a with
    | ⟨0, _⟩ => rfl
    | ⟨1, _⟩ => rfl
    | ⟨2, _⟩ => rfl
    | ⟨3, _⟩ => rfl
  · refine broadcastInDim_apply _ _ _ (ix4 (0 : Fin 1) i o (0 : Fin 1)) (ix2 i o) ?_
    intro a; match a with
    | ⟨0, _⟩ => rfl
    | ⟨1, _⟩ => rfl

/-- The initial logits [1152, 10] repeated over the batch. -/
def bcastB (b : FVec Ideal S1152x10 .f32) : FVec Ideal S128x1152x10 .f32 :=
  broadcastInDim S128x1152x10 ![1, 2] bcast_S1152x10_S128x1152x10_1_2 b

theorem bcastB_apply (b : FVec Ideal S1152x10 .f32) (n : Fin 128) (i : Fin 1152) (o : Fin 10) :
    bcastB b (ix3 n i o) = b (ix2 i o) := by
  refine broadcastInDim_apply _ _ _ (ix3 n i o) (ix2 i o) ?_
  intro a; match a with
  | ⟨0, _⟩ => rfl
  | ⟨1, _⟩ => rfl

/-- The host's zero word as the initial value of a sum. -/
theorem zero_first : (constant (F := Ideal) S_ .f32 0x00000000#32) (Shape.Idx.first h_S_) = (0 : EReal) :=
  Ideal.ofBits_zero_f32

/-- The weighted sum over the input capsules. -/
def wsumV (cb u : FVec Ideal S128x1152x10x16 .f32) : FVec Ideal S128x10x16 .f32 :=
  Host.reduceAdd (mulf cb u) (constant S_ .f32 0x00000000#32) reducesTo_S128x1152x10x16_S128x10x16_d1 h_S_

theorem wsumV_apply (cb u : FVec Ideal S128x1152x10x16 .f32) (n : Fin 128) (o : Fin 10) (d : Fin 16) :
    wsumV cb u (ix3 n o d) = (0 : EReal) + ∑ i : Fin 1152, cb (ix4 n i o d) * u (ix4 n i o d) := by
  have hR : S128x1152x10x16.Reduces [1] S128x10x16 :=
    ⟨reducesTo_S128x1152x10x16_S128x10x16_d1.1, by decide, reducesTo_S128x1152x10x16_S128x10x16_d1.2⟩
  have hlift : ∀ k : Fin 1152, hR.lift (ix3 n o d) k = ix4 n k o d := fun k =>
    funext fun a => Fin.ext (by match a with
      | ⟨0, _⟩ => rfl
      | ⟨1, _⟩ => rfl
      | ⟨2, _⟩ => rfl
      | ⟨3, _⟩ => rfl)
  refine (hostReduceAdd_apply (mulf cb u) _ reducesTo_S128x1152x10x16_S128x10x16_d1 h_S_ (ix3 n o d)).trans ?_
  refine (Ideal.hostReduceAdd_single reducesTo_S128x1152x10x16_S128x10x16_d1 hR (mulf cb u) _ (ix3 n o d)).trans ?_
  rw [zero_first]
  refine congrArg ((0 : EReal) + ·) ?_
  exact Finset.sum_congr rfl fun k _ => congrArg (mulf cb u) (hlift k)

/-- The squared lengths of the capsules. -/
def len2V (s : FVec Ideal S128x10x16 .f32) : FVec Ideal S128x10 .f32 :=
  Host.reduceAdd (mulf s s) (constant S_ .f32 0x00000000#32) reducesTo_S128x10x16_S128x10_d2 h_S_

theorem len2V_apply (s : FVec Ideal S128x10x16 .f32) (n : Fin 128) (o : Fin 10) :
    len2V s (ix2 n o) = (0 : EReal) + ∑ d : Fin 16, s (ix3 n o d) * s (ix3 n o d) := by
  have hR : S128x10x16.Reduces [2] S128x10 :=
    ⟨reducesTo_S128x10x16_S128x10_d2.1, by decide, reducesTo_S128x10x16_S128x10_d2.2⟩
  have hlift : ∀ k : Fin 16, hR.lift (ix2 n o) k = ix3 n o k := fun k =>
    funext fun a => Fin.ext (by match a with
      | ⟨0, _⟩ => rfl
      | ⟨1, _⟩ => rfl
      | ⟨2, _⟩ => rfl)
  refine (hostReduceAdd_apply (mulf s s) _ reducesTo_S128x10x16_S128x10_d2 h_S_ (ix2 n o)).trans ?_
  refine (Ideal.hostReduceAdd_single reducesTo_S128x10x16_S128x10_d2 hR (mulf s s) _ (ix2 n o)).trans ?_
  rw [zero_first]
  refine congrArg ((0 : EReal) + ·) ?_
  exact Finset.sum_congr rfl fun k _ => congrArg (mulf s s) (hlift k)

/-- The squashing: each capsule times n / (1 + n) / sqrt n, n its squared length. -/
def squashV (s : FVec Ideal S128x10x16 .f32) (nn : FVec Ideal S128x10 .f32) : FVec Ideal S128x10x16 .f32 :=
  mulf s (broadcastInDim S128x10x16 ![0, 1, 2] bcast_S128x10x1_S128x10x16_0_1_2
    (broadcastInDim S128x10x1 ![0, 1] bcast_S128x10_S128x10x1_0_1
      (Host.divf (Host.divf nn (addf (broadcastInDim S128x10 ![] bcast_S_S128x10 (constant S_ .f32 0x3F800000#32)) nn))
        (Host.sqrt nn))))

theorem squashV_apply (s : FVec Ideal S128x10x16 .f32) (nn : FVec Ideal S128x10 .f32) (n : Fin 128) (o : Fin 10) (d : Fin 16) :
    squashV s nn (ix3 n o d)
      = s (ix3 n o d) * Ideal.div (Ideal.div (nn (ix2 n o)) (((1 : ℝ) : EReal) + nn (ix2 n o))) (Ideal.sqrt (nn (ix2 n o))) := by
  show s (ix3 n o d) * _ = _
  refine congrArg (s (ix3 n o d) * ·) ?_
  refine (broadcastInDim_apply _ _ _ (ix3 n o d) (ix3 n o (0 : Fin 1)) ?_).trans ?_
  · intro a; match a with
    | ⟨0, _⟩ => rfl
    | ⟨1, _⟩ => rfl
    | ⟨2, _⟩ => rfl
  refine (broadcastInDim_apply _ _ _ (ix3 n o (0 : Fin 1)) (ix2 n o) ?_).trans ?_
  · intro a; match a with
    | ⟨0, _⟩ => rfl
    | ⟨1, _⟩ => rfl
  show Ideal.div (Ideal.div (nn (ix2 n o)) (broadcastInDim S128x10 ![] bcast_S_S128x10 (constant (F := Ideal) S_ .f32 0x3F800000#32) (ix2 n o) + nn (ix2 n o)))
      (Ideal.sqrt (nn (ix2 n o))) = _
  have h1 : broadcastInDim S128x10 ![] bcast_S_S128x10 (constant (F := Ideal) S_ .f32 0x3F800000#32) (ix2 n o) = ((1 : ℝ) : EReal) :=
    (broadcastInDim_scalar_apply _ _ _).trans ofBits_one
  rw [h1]

/-- The agreements of the prediction vectors with the capsules. -/
def agreeV (u : FVec Ideal S128x1152x10x16 .f32) (v : FVec Ideal S128x10x16 .f32) : FVec Ideal S128x1152x10 .f32 :=
  Host.reduceAdd (mulf u (broadcastInDim S128x1152x10x16 ![0, 1, 2, 3] bcast_S128x1x10x16_S128x1152x10x16_0_1_2_3
    (broadcastInDim S128x1x10x16 ![0, 2, 3] bcast_S128x10x16_S128x1x10x16_0_2_3 v)))
    (constant S_ .f32 0x00000000#32) reducesTo_S128x1152x10x16_S128x1152x10_d3 h_S_

theorem agreeV_apply (u : FVec Ideal S128x1152x10x16 .f32) (v : FVec Ideal S128x10x16 .f32) (n : Fin 128) (i : Fin 1152) (o : Fin 10) :
    agreeV u v (ix3 n i o) = (0 : EReal) + ∑ d : Fin 16, u (ix4 n i o d) * v (ix3 n o d) := by
  have hR : S128x1152x10x16.Reduces [3] S128x1152x10 :=
    ⟨reducesTo_S128x1152x10x16_S128x1152x10_d3.1, by decide, reducesTo_S128x1152x10x16_S128x1152x10_d3.2⟩
  have hlift : ∀ k : Fin 16, hR.lift (ix3 n i o) k = ix4 n i o k := fun k =>
    funext fun a => Fin.ext (by match a with
      | ⟨0, _⟩ => rfl
      | ⟨1, _⟩ => rfl
      | ⟨2, _⟩ => rfl
      | ⟨3, _⟩ => rfl)
  have hv : ∀ k : Fin 16, broadcastInDim S128x1152x10x16 ![0, 1, 2, 3] bcast_S128x1x10x16_S128x1152x10x16_0_1_2_3
      (broadcastInDim S128x1x10x16 ![0, 2, 3] bcast_S128x10x16_S128x1x10x16_0_2_3 v) (ix4 n i o k) = v (ix3 n o k) := by
    intro k
    refine (broadcastInDim_apply _ _ _ (ix4 n i o k) (ix4 n (0 : Fin 1) o k) ?_).trans ?_
    · intro a; match a with
      | ⟨0, _⟩ => rfl
      | ⟨1, _⟩ => rfl
      | ⟨2, _⟩ => rfl
      | ⟨3, _⟩ => rfl
    · refine broadcastInDim_apply _ _ _ (ix4 n (0 : Fin 1) o k) (ix3 n o k) ?_
      intro a; match a with
      | ⟨0, _⟩ => rfl
      | ⟨1, _⟩ => rfl
      | ⟨2, _⟩ => rfl
  refine (hostReduceAdd_apply _ _ reducesTo_S128x1152x10x16_S128x1152x10_d3 h_S_ (ix3 n i o)).trans ?_
  refine (Ideal.hostReduceAdd_single reducesTo_S128x1152x10x16_S128x1152x10_d3 hR _ _ (ix3 n i o)).trans ?_
  rw [zero_first]
  refine congrArg ((0 : EReal) + ·) ?_
  refine Finset.sum_congr rfl fun k _ => ?_
  rw [hlift k]
  show u (ix4 n i o k) * _ = _
  rw [hv k]

end Cert.ReferenceIdeal.RefValue

end
-- ==== Proof.RefEqs.lean ====
/-
  The reference's composed terms, round by round, as the named pieces of a routing round: each generated term
  unfolds to the piece applied to the terms before it.
-/
import proofs.«174649_g90658169684170_cont_sun_m_702_26_alg».proof.Proof.Gen.ReferenceIdeal.Run
import proofs.«174649_g90658169684170_cont_sun_m_702_26_alg».proof.Proof.RefSoftmax
import proofs.«174649_g90658169684170_cont_sun_m_702_26_alg».proof.Proof.RefPieces

noncomputable section

open scoped BigOperators

namespace Cert.ReferenceIdeal.RefValue

open Cert.ReferenceIdeal Cert.ReferenceIdeal.Gen Cert.ReferenceIdeal.Value Idealize.ShloMosaic Idealize.ShloMosaic.TcCoe Idealize.SL.Sem
  Idealize.ShloMosaic.StableHlo Idealize.ShloMosaic.ValueIdx Cert.Route

variable (V0 : Valuation τ sig (Elt Ideal))

/-- The prediction vectors: the program's first argument. -/
abbrev argU : FVec Ideal S128x1152x10x16 .f32 := V0 (Proc.devRef .tc main_arg0)
/-- The initial logits: the program's second argument. -/
abbrev argB : FVec Ideal S1152x10 .f32 := V0 (Proc.devRef .tc main_arg1)

theorem e6 : res_main_v6 V0 = expShift1152 (argB V0) := rfl
theorem e14 : res_main_v14 V0 = wsumV (coefBig0 (rowQuot1152 (res_main_v6 V0))) (argU V0) := rfl
theorem e16 : res_main_v16 V0 = len2V (res_main_v14 V0) := rfl
theorem e30 : res_main_v30 V0 = addf (bcastB (argB V0)) (agreeV (argU V0) (squashV (res_main_v14 V0) (res_main_v16 V0))) := rfl

theorem e31 : res_main_v31 V0 = flatV (res_main_v30 V0) := rfl
theorem e38 : res_main_v38 V0 = expShift147456 (res_main_v31 V0) := rfl
theorem e46 : res_main_v46 V0 = wsumV (coefBig (rowQuot147456 (res_main_v38 V0))) (argU V0) := rfl
theorem e48 : res_main_v48 V0 = len2V (res_main_v46 V0) := rfl
theorem e61 : res_main_v61 V0 = addf (res_main_v30 V0) (agreeV (argU V0) (squashV (res_main_v46 V0) (res_main_v48 V0))) := rfl

theorem e62 : res_main_v62 V0 = flatV (res_main_v61 V0) := rfl
theorem e69 : res_main_v69 V0 = expShift147456 (res_main_v62 V0) := rfl
theorem e77 : res_main_v77 V0 = wsumV (coefBig (rowQuot147456 (res_main_v69 V0))) (argU V0) := rfl
theorem e79 : res_main_v79 V0 = len2V (res_main_v77 V0) := rfl
theorem e92 : res_main_v92 V0 = addf (res_main_v61 V0) (agreeV (argU V0) (squashV (res_main_v77 V0) (res_main_v79 V0))) := rfl

theorem e93 : res_main_v93 V0 = flatV (res_main_v92 V0) := rfl
theorem e100 : res_main_v100 V0 = expShift147456 (res_main_v93 V0) := rfl
theorem e108 : res_main_v108 V0 = wsumV (coefBig (rowQuot147456 (res_main_v100 V0))) (argU V0) := rfl
theorem e110 : res_main_v110 V0 = len2V (res_main_v108 V0) := rfl

theorem e124 : res_main_v124 V0 = flatV (addf (res_main_v92 V0) (agreeV (argU V0) (squashV (res_main_v108 V0) (res_main_v110 V0)))) := rfl
theorem e131 : res_main_v131 V0 = expShift147456 (res_main_v124 V0) := rfl
theorem e139 : res_main_v139 V0 = wsumV (coefBig (rowQuot147456 (res_main_v131 V0))) (argU V0) := rfl
theorem e141 : res_main_v141 V0 = len2V (res_main_v139 V0) := rfl

/-- The program's first result: the squashed capsules of the last round. -/
theorem eOutV : mulf (res_main_v139 V0) (broadcastInDim S128x10x16 ![0, 1, 2] bcast_S128x10x1_S128x10x16_0_1_2 (broadcastInDim S128x10x1 ![0, 1] bcast_S128x10_S128x10x1_0_1 (Host.divf (Host.divf (res_main_v141 V0) (addf (broadcastInDim S128x10 ![] bcast_S_S128x10 (constant S_ .f32 0x3F800000#32)) (res_main_v141 V0))) (Host.sqrt (res_main_v141 V0)))))
    = squashV (res_main_v139 V0) (res_main_v141 V0) := rfl

/-- The program's second result: the last round's coefficients times the prediction vectors. -/
theorem eOutS : mulf (broadcastInDim S128x1152x10x16 ![0, 1, 2, 3] bcast_S128x1152x10x1_S128x1152x10x16_0_1_2_3 (shapeCast _ (Host.divf (res_main_v131 V0) (broadcastInDim S147456x10 ![0, 1] bcast_S147456x1_S147456x10_0_1 (broadcastInDim S147456x1 ![0] bcast_S147456_S147456x1_0 (Host.reduceAdd (res_main_v131 V0) (constant S_ .f32 0x00000000#32) reducesTo_S147456x10_S147456_d1 h_S_)))) shapeCasts_S147456x10_S128x1152x10x1)) (V0 (Proc.devRef .tc main_arg0))
    = mulf (coefBig (rowQuot147456 (res_main_v131 V0))) (argU V0) := rfl

end Cert.ReferenceIdeal.RefValue

end
-- ==== Proof.RefStep.lean ====
/-
  One routing round of the reference on real data.  Where, for one batch element, the prediction vectors, the
  coefficients laid out beside them and the logits hold real numbers, the round's arrays hold the real numbers of
  the routing formulas: the weighted sums, their squared lengths, the squashed capsules, the next logits, and the
  coefficient-weighted prediction vectors.
-/
import proofs.«174649_g90658169684170_cont_sun_m_702_26_alg».proof.Proof.RefPieces
import proofs.«174649_g90658169684170_cont_sun_m_702_26_alg».proof.Proof.RefSoftmax

noncomputable section

open scoped BigOperators

namespace Cert.ReferenceIdeal.RefValue

open Cert.ReferenceIdeal Cert.ReferenceIdeal.Gen Idealize.ShloMosaic Idealize.ShloMosaic.ValueIdx Cert.Route

/-- The coefficients of a later round beside the prediction vectors: the softmax of the flattened logits. -/
theorem coefBig_real (Lp : FVec Ideal S128x1152x10 .f32) (n : Fin 128) (Lr : Fin 1152 → Fin 10 → ℝ)
    (hLp : ∀ i o, Lp (ix3 n i o) = ((Lr i o : ℝ) : EReal)) (i : Fin 1152) (o : Fin 10) (d : Fin 16) :
    coefBig (rowQuot147456 (expShift147456 (flatV Lp))) (ix4 n i o d) = ((coef Lr i o : ℝ) : EReal) := by
  rw [coefBig_apply]
  exact softmax147456_apply (flatV Lp) (row n i) (Lr i) (fun o' => (flatV_apply Lp n i o').trans (hLp i o')) o

/-- The coefficients of the first round beside the prediction vectors: the softmax of the initial logits. -/
theorem coefBig0_real (bv : FVec Ideal S1152x10 .f32) (b : Fin 1152 → Fin 10 → ℝ)
    (hb : ∀ i o, bv (ix2 i o) = ((b i o : ℝ) : EReal)) (n : Fin 128) (i : Fin 1152) (o : Fin 10) (d : Fin 16) :
    coefBig0 (rowQuot1152 (expShift1152 bv)) (ix4 n i o d) = ((coef b i o : ℝ) : EReal) := by
  rw [coefBig0_apply]
  exact softmax1152_apply bv i (b i) (hb i) o

section Step

variable (u cb : FVec Ideal S128x1152x10x16 .f32) (n : Fin 128)
  (Un : Fin 1152 → Fin 10 → Fin 16 → ℝ) (Lr : Fin 1152 → Fin 10 → ℝ)
  (hu : ∀ i o d, u (ix4 n i o d) = ((Un i o d : ℝ) : EReal))
  (hcb : ∀ i o d, cb (ix4 n i o d) = ((coef Lr i o : ℝ) : EReal))

include hu hcb

/-- The weighted sums of the round. -/
theorem wsumV_real (o : Fin 10) (d : Fin 16) :
    wsumV cb u (ix3 n o d) = ((wsum Un (coef Lr) o d : ℝ) : EReal) := by
  rw [wsumV_apply, zero_add]
  have h : ∀ i : Fin 1152, cb (ix4 n i o d) * u (ix4 n i o d) = ((Un i o d * coef Lr i o : ℝ) : EReal) := fun i => by
    rw [hcb i o d, hu i o d, ← EReal.coe_mul, mul_comm]
  rw [Finset.sum_congr rfl fun i _ => h i, ← coe_sum]
  rfl

/-- Their squared lengths. -/
theorem len2V_real (o : Fin 10) :
    len2V (wsumV cb u) (ix2 n o) = ((len2 (wsum Un (coef Lr)) o : ℝ) : EReal) := by
  rw [len2V_apply, zero_add]
  have h : ∀ d : Fin 16, wsumV cb u (ix3 n o d) * wsumV cb u (ix3 n o d)
      = ((wsum Un (coef Lr) o d * wsum Un (coef Lr) o d : ℝ) : EReal) := fun d => by
    rw [wsumV_real u cb n Un Lr hu hcb o d, ← EReal.coe_mul]
  rw [Finset.sum_congr rfl fun d _ => h d, ← coe_sum]
  rfl

/-- The squashed capsules: the output capsules of the round. -/
theorem squashV_real (o : Fin 10) (d : Fin 16) :
    squashV (wsumV cb u) (len2V (wsumV cb u)) (ix3 n o d) = ((caps Un Lr o d : ℝ) : EReal) := by
  rw [squashV_apply, wsumV_real u cb n Un Lr hu hcb o d, len2V_real u cb n Un Lr hu hcb o]
  exact squash_quotient _ _ (len2_nonneg _ o) (fun h => eq_zero_of_len2 _ o h d)

/-- The next logits. -/
theorem next_real (Lp : FVec Ideal S128x1152x10 .f32) (hLp : ∀ i o, Lp (ix3 n i o) = ((Lr i o : ℝ) : EReal))
    (i : Fin 1152) (o : Fin 10) :
    addf Lp (agreeV u (squashV (wsumV cb u) (len2V (wsumV cb u)))) (ix3 n i o) = ((next Un Lr i o : ℝ) : EReal) := by
  rw [addf_apply, hLp i o, agreeV_apply, zero_add]
  have h : ∀ d : Fin 16, u (ix4 n i o d) * squashV (wsumV cb u) (len2V (wsumV cb u)) (ix3 n o d)
      = ((Un i o d * caps Un Lr o d : ℝ) : EReal) := fun d => by
    rw [hu i o d, squashV_real u cb n Un Lr hu hcb o d, ← EReal.coe_mul]
  rw [Finset.sum_congr rfl fun d _ => h d, ← coe_sum, ← EReal.coe_add]
  rfl

/-- The coefficient-weighted prediction vectors. -/
theorem weighted_real (i : Fin 1152) (o : Fin 10) (d : Fin 16) :
    mulf cb u (ix4 n i o d) = ((coef Lr i o * Un i o d : ℝ) : EReal) := by
  rw [mulf_apply, hcb i o d, hu i o d, ← EReal.coe_mul]

end Step

end Cert.ReferenceIdeal.RefValue

end
-- ==== Proof.RefChain.lean ====
/-
  The reference's five routing rounds read on real data.  Where the two arguments hold real numbers — the
  prediction vectors U and the initial logits b — the logits array after each round holds, for every batch
  element n, the real logits of that element after as many rounds, and the two results hold the output capsules
  of the last round and its coefficient-weighted prediction vectors.
-/
import proofs.«174649_g90658169684170_cont_sun_m_702_26_alg».proof.Proof.RefEqs
import proofs.«174649_g90658169684170_cont_sun_m_702_26_alg».proof.Proof.RefStep

noncomputable section

open scoped BigOperators

namespace Cert.ReferenceIdeal.RefValue

open Cert.ReferenceIdeal Cert.ReferenceIdeal.Gen Cert.ReferenceIdeal.Value Idealize.ShloMosaic Idealize.ShloMosaic.TcCoe Idealize.SL.Sem
  Idealize.ShloMosaic.StableHlo Idealize.ShloMosaic.ValueIdx Cert.Route

variable (V0 : Valuation τ sig (Elt Ideal))

variable (U : Fin 128 → Fin 1152 → Fin 10 → Fin 16 → ℝ) (b : Fin 1152 → Fin 10 → ℝ)
  (hU : ∀ n i o d, (V0 (Proc.devRef .tc main_arg0) : FVec Ideal S128x1152x10x16 .f32) (ix4 n i o d) = ((U n i o d : ℝ) : EReal))
  (hb : ∀ i o, (V0 (Proc.devRef .tc main_arg1) : FVec Ideal S1152x10 .f32) (ix2 i o) = ((b i o : ℝ) : EReal))

include hU hb

/-- After the first round. -/
theorem logits1 (n : Fin 128) (i : Fin 1152) (o : Fin 10) :
    res_main_v30 V0 (ix3 n i o) = ((logits (U n) b 1 i o : ℝ) : EReal) := by
  rw [e30, e16, e14, e6]
  exact next_real (argU V0) _ n (U n) b (hU n) (coefBig0_real (argB V0) b hb n) (bcastB (argB V0))
    (fun i o => (bcastB_apply _ n i o).trans (hb i o)) i o

/-- After the second round. -/
theorem logits2 (n : Fin 128) (i : Fin 1152) (o : Fin 10) :
    res_main_v61 V0 (ix3 n i o) = ((logits (U n) b 2 i o : ℝ) : EReal) := by
  rw [e61, e48, e46, e38, e31]
  exact next_real (argU V0) _ n (U n) (logits (U n) b 1) (hU n)
    (coefBig_real (res_main_v30 V0) n _ (logits1 V0 U b hU hb n)) (res_main_v30 V0) (logits1 V0 U b hU hb n) i o

/-- After the third round. -/
theorem logits3 (n : Fin 128) (i : Fin 1152) (o : Fin 10) :
    res_main_v92 V0 (ix3 n i o) = ((logits (U n) b 3 i o : ℝ) : EReal) := by
  rw [e92, e79, e77, e69, e62]
  exact next_real (argU V0) _ n (U n) (logits (U n) b 2) (hU n)
    (coefBig_real (res_main_v61 V0) n _ (logits2 V0 U b hU hb n)) (res_main_v61 V0) (logits2 V0 U b hU hb n) i o

/-- After the fourth round. -/
theorem logits4 (n : Fin 128) (i : Fin 1152) (o : Fin 10) :
    (addf (res_main_v92 V0) (agreeV (argU V0) (squashV (res_main_v108 V0) (res_main_v110 V0)))) (ix3 n i o) = ((logits (U n) b 4 i o : ℝ) : EReal) := by
  rw [e110, e108, e100, e93]
  exact next_real (argU V0) _ n (U n) (logits (U n) b 3) (hU n)
    (coefBig_real (res_main_v92 V0) n _ (logits3 V0 U b hU hb n)) (res_main_v92 V0) (logits3 V0 U b hU hb n) i o

/-- THE FIRST RESULT: the output capsules of the fifth round. -/
theorem ref_caps (n : Fin 128) (o : Fin 10) (d : Fin 16) :
    (mulf (res_main_v139 V0) (broadcastInDim S128x10x16 ![0, 1, 2] bcast_S128x10x1_S128x10x16_0_1_2 (broadcastInDim S128x10x1 ![0, 1] bcast_S128x10_S128x10x1_0_1 (Host.divf (Host.divf (res_main_v141 V0) (addf (broadcastInDim S128x10 ![] bcast_S_S128x10 (constant S_ .f32 0x3F800000#32)) (res_main_v141 V0))) (Host.sqrt (res_main_v141 V0)))))) (ix3 n o d)
      = ((caps (U n) (logits (U n) b 4) o d : ℝ) : EReal) := by
  refine (congrFun (eOutV V0) (ix3 n o d)).trans ?_
  rw [e141, e139, e131, e124]
  exact squashV_real (argU V0) _ n (U n) (logits (U n) b 4) (hU n)
    (coefBig_real (addf (res_main_v92 V0) (agreeV (argU V0) (squashV (res_main_v108 V0) (res_main_v110 V0)))) n _ (logits4 V0 U b hU hb n)) o d

/-- THE SECOND RESULT: the fifth round's coefficients times the prediction vectors. -/
theorem ref_s1 (n : Fin 128) (i : Fin 1152) (o : Fin 10) (d : Fin 16) :
    (mulf (broadcastInDim S128x1152x10x16 ![0, 1, 2, 3] bcast_S128x1152x10x1_S128x1152x10x16_0_1_2_3 (shapeCast _ (Host.divf (res_main_v131 V0) (broadcastInDim S147456x10 ![0, 1] bcast_S147456x1_S147456x10_0_1 (broadcastInDim S147456x1 ![0] bcast_S147456_S147456x1_0 (Host.reduceAdd (res_main_v131 V0) (constant S_ .f32 0x00000000#32) reducesTo_S147456x10_S147456_d1 h_S_)))) shapeCasts_S147456x10_S128x1152x10x1)) (V0 (Proc.devRef .tc main_arg0))) (ix4 n i o d)
      = ((coef (logits (U n) b 4) i o * U n i o d : ℝ) : EReal) := by
  refine (congrFun (eOutS V0) (ix4 n i o d)).trans ?_
  rw [e131, e124]
  exact weighted_real (argU V0) _ n (U n) (logits (U n) b 4) (hU n)
    (coefBig_real (addf (res_main_v92 V0) (agreeV (argU V0) (squashV (res_main_v108 V0) (res_main_v110 V0)))) n _ (logits4 V0 U b hU hb n)) i o d

end Cert.ReferenceIdeal.RefValue

end
-- ==== Proof.lean ====
/-
  Capsule routing by agreement, five rounds, f32[128, 1152, 10, 16] prediction vectors and f32[1152, 10] initial logits:
  a kernel that keeps each batch element's prediction vectors as a [160, 1152] tile (output capsule and capsule
  coordinate flattened, k = 16 o + d) and runs all five rounds on blocks of 8 batch elements, against the plain
  array program.  Read at the extended reals with finite inputs, both compute, for every batch element n separately,
  the real routing of Proof/RouteReal.lean:

    * the softmax over the output capsules is  exp b * (1 / sum exp b)  in the kernel and  exp (b - max b) / sum exp (b - max b)
      in the reference: equal because every logit stays a real number (Cert.Route.coef_direct, coef_shifted);
    * the squashing factor is  sqrt n * (1 / (1 + n))  in the kernel and  n / (1 + n) / sqrt n  in the reference, n the
      squared length of the capsule: equal for n > 0, and at n = 0 the capsule itself is the zero vector, so both
      products are 0 whatever the second factor reads (squash_direct, squash_quotient);
    * the agreement  sum_d u * v  is in the kernel a product of the 0/1 mask (k / 16 = o) times v with the tile, summed
      over the 160 flattened coordinates: the mask keeps the sixteen coordinates of capsule o (masked_sum);
    * sums are taken in different orders and the factors of a product in different orders: extended-real addition and
      multiplication of real numbers are those of the reals.

  The inputs are real because the precondition says they are finite (Proof/FiniteInputs.lean).  The kernel side:
  Proof/KRound.lean (a round's steps at an index), KMask.lean, KAgree.lean, KCaps.lean, KBlock.lean (the block's stored
  values), KHost.lean (the layout changes before and after the region), KArrays.lean (the region's output arrays),
  KRun.lean (the run).  The reference side: Proof/RefSoftmax.lean, RefPieces.lean, RefStep.lean (a round's pieces at an index), RefEqs.lean (the generated
  run's terms as those pieces), RefChain.lean (the five rounds).
-/
import proofs.«174649_g90658169684170_cont_sun_m_702_26_alg».proof.Defs
import proofs.«174649_g90658169684170_cont_sun_m_702_26_alg».proof.Proof.Gen.Kernel
import proofs.«174649_g90658169684170_cont_sun_m_702_26_alg».proof.Proof.Gen.Kernel.Skeleton
import proofs.«174649_g90658169684170_cont_sun_m_702_26_alg».proof.Proof.Gen.Kernel.Launch
import proofs.«174649_g90658169684170_cont_sun_m_702_26_alg».proof.Proof.Gen.Kernel.Points
import proofs.«174649_g90658169684170_cont_sun_m_702_26_alg».proof.Proof.Gen.Kernel.Frame
import proofs.«174649_g90658169684170_cont_sun_m_702_26_alg».proof.Proof.Gen.KernelIdeal
import proofs.«174649_g90658169684170_cont_sun_m_702_26_alg».proof.Proof.Gen.KernelIdeal.Skeleton
import proofs.«174649_g90658169684170_cont_sun_m_702_26_alg».proof.Proof.Gen.KernelIdeal.Launch
import proofs.«174649_g90658169684170_cont_sun_m_702_26_alg».proof.Proof.Gen.KernelIdeal.Points
import proofs.«174649_g90658169684170_cont_sun_m_702_26_alg».proof.Proof.Gen.KernelIdeal.Frame
import proofs.«174649_g90658169684170_cont_sun_m_702_26_alg».proof.Proof.Gen.ReferenceIdeal
import proofs.«174649_g90658169684170_cont_sun_m_702_26_alg».proof.Proof.Gen.Pre_finite_inputs
import proofs.«174649_g90658169684170_cont_sun_m_702_26_alg».proof.Proof.Gen.ReferenceIdeal.Run
import proofs.«174649_g90658169684170_cont_sun_m_702_26_alg».proof.Proof.KRun
import proofs.«174649_g90658169684170_cont_sun_m_702_26_alg».proof.Proof.FiniteInputs
import proofs.«174649_g90658169684170_cont_sun_m_702_26_alg».proof.Proof.RouteArrays
import proofs.«174649_g90658169684170_cont_sun_m_702_26_alg».proof.Proof.RefChain
import Idealize.ShloMosaic.Adequacy
import Idealize.ShloMosaic.Init

noncomputable section

namespace Cert.Proof

open Idealize.ShloMosaic Idealize.ShloMosaic.ValueIdx Idealize.SL.Sem Cert.Route

/-- The kernel program runs and leaves its arguments as they were. -/
theorem frame_k : Cert.frame_Kernel := fun m ρ _ => Cert.Kernel.Gen.frame m ρ

/-- So does its reading at the extended reals. -/
theorem frame_ki : Cert.frame_KernelIdeal := fun m ρ _ => Cert.KernelIdeal.Gen.frame m ρ

/-- The reference runs and leaves its arguments as they were: its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on finite arguments both programs end with the capsules and the weighted prediction vectors
    of the real routing of each batch element. -/
theorem algebraic : Cert.algebraic_KernelIdeal_ReferenceIdeal := by
  intro m ρ m' ρ' hpre hagree
  have hfin := fun c => Cert.Route.Finite.reals_of_pre _ _ (hpre c)
  choose U hU using fun c => (hfin c).1
  choose B hB using fun c => (hfin c).2
  refine ⟨fun c => capsArr (U c) (B c), fun c => s1Arr (U c) (B c), Cert.KernelIdeal.KR.kernel_run m ρ U B hU hB, ?_⟩
  refine (θ_run Cert.ReferenceIdeal.defs _ _).mono
    (fun r h c => ⟨(h c).1.trans ?_, (h c).2.1.trans ?_, (h c).2.2.1, (h c).2.2.2⟩)
    (Cert.ReferenceIdeal.Value.run (F := Ideal) m' ρ')
  · funext j
    obtain ⟨n, o, d, rfl⟩ : ∃ (n : Fin 128) (o : Fin 10) (d : Fin 16), j = ix3 n o d := ⟨j 0, j 1, j 2, eq_ix3 j⟩
    exact Cert.ReferenceIdeal.RefValue.ref_caps (StableHlo.launchContents m' c) (U c) (B c)
      (fun n i o d => (congrFun (hagree c).1 (ix4 n i o d)).trans (hU c n i o d))
      (fun i o => (congrFun (hagree c).2 (ix2 i o)).trans (hB c i o)) n o d
  · funext j
    obtain ⟨n, i, o, d, rfl⟩ : ∃ (n : Fin 128) (i : Fin 1152) (o : Fin 10) (d : Fin 16), j = ix4 n i o d :=
      ⟨j 0, j 1, j 2, j 3, eq_ix4 j⟩
    refine (Cert.ReferenceIdeal.RefValue.ref_s1 (StableHlo.launchContents m' c) (U c) (B c)
      (fun n i o d => (congrFun (hagree c).1 (ix4 n i o d)).trans (hU c n i o d))
      (fun i o => (congrFun (hagree c).2 (ix2 i o)).trans (hB c i o)) n i o d).trans ?_
    show _ = s1Arr (U c) (B c) (ix4 n i o d)
    rw [s1Arr_apply, mul_comm]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
